-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S128x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S128x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S128x128 : Shape := ⟨2, ![128, 128]⟩
abbrev S128 : Shape := ⟨1, ![128]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1 : Shape := ⟨1, ![1]⟩
abbrev S2 : Shape := ⟨1, ![2]⟩
abbrev S100000x64 : Shape := ⟨2, ![100000, 64]⟩
abbrev S1x100000x64 : Shape := ⟨3, ![1, 100000, 64]⟩
abbrev S2x100000x64 : Shape := ⟨3, ![2, 100000, 64]⟩

abbrev nBuf : Space → Nat
  | .hbm => 86
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S128x128, .f32⟩
  | .hbm, ⟨33, _⟩ => ⟨S128, .f32⟩
  | .hbm, ⟨34, _⟩ => ⟨S100000x128, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S_, .f32⟩
  | .hbm, ⟨51, _⟩ => ⟨S128x128, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S128x128, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S128x128, .f32⟩
  | .hbm, ⟨64, _⟩ => ⟨S128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x64, .f32⟩
  | .hbm, ⟨82, _⟩ => ⟨S100000x64, .f32⟩
  | .hbm, ⟨83, _⟩ => ⟨S1x100000x64, .f32⟩
  | .hbm, ⟨84, _⟩ => ⟨S1x100000x64, .f32⟩
  | .hbm, ⟨85, _⟩ => ⟨S2x100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  concatenates_S128x64_S128x64_S128x128_d1 : Shape.Concatenates [S128x64, S128x64] S128x128 1
  concatenates_S64_S64_S128_d0 : Shape.Concatenates [S64, S64] S128 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  slices_S100000x128_S100000x64_0_0 : S100000x128.Slices ![0, 0] S100000x64
  slices_S100000x128_S100000x64_0_64 : S100000x128.Slices ![0, 64] S100000x64
  bcast_S100000x64_S1x100000x64_1_2 : S100000x64.BroadcastsInDim S1x100000x64 (![1, 2] : Fin 2 → Fin S1x100000x64.rank)
  concatenates_S1x100000x64_S1x100000x64_S2x100000x64_d0 : Shape.Concatenates [S1x100000x64, S1x100000x64] S2x100000x64 0
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S2_S64x64_01_n_01_0_wf : ScatterDims.WF S128x128 S2 S64x64 [0, 1] [] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x100000x64 : Shape := ⟨3, ![1, 100000, 64]⟩
abbrev S2x100000x64 : Shape := ⟨3, ![2, 100000, 64]⟩

abbrev nBuf : Space → Nat
  | .hbm => 238
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S128x64, .f32⟩
  | 7 => ⟨S64, .f32⟩
  | 8 => ⟨S64x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S100000x64, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x64, .f32⟩
  | 116 => ⟨S1700000x1, .f32⟩
  | 117 => ⟨S1700000x64, .f32⟩
  | 118 => ⟨S1700000x64, .f32⟩
  | 119 => ⟨S_, .f32⟩
  | 120 => ⟨S100000x64, .f32⟩
  | 121 => ⟨S1700000x1, .i32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S1700000, .f32⟩
  | _ => ⟨S100000x128, .f32⟩

abbrev hbmTy0_1 (i : Nat) : BufTy := match i % 128 with
  | 0 => ⟨S_, .f32⟩
  | 1 => ⟨S100000, .f32⟩
  | 2 => ⟨S1700000x1, .i32⟩
  | 3 => ⟨S100000, .f32⟩
  | 4 => ⟨S_, .f32⟩
  | 5 => ⟨S100000, .f32⟩
  | 6 => ⟨S100000, .i1⟩
  | 7 => ⟨S100000, .f32⟩
  | 8 => ⟨S_, .f32⟩
  | 9 => ⟨S_, .f32⟩
  | 10 => ⟨S100000, .f32⟩
  | 11 => ⟨S100000, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000, .f32⟩
  | 30 => ⟨S1700000, .f32⟩
  | 31 => ⟨S100000x64, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x64, .f32⟩
  | 41 => ⟨S1700000x1, .f32⟩
  | 42 => ⟨S1700000x64, .f32⟩
  | 43 => ⟨S1700000x64, .f32⟩
  | 44 => ⟨S_, .f32⟩
  | 45 => ⟨S100000x64, .f32⟩
  | 46 => ⟨S1700000x1, .i32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S1700000, .f32⟩
  | 56 => ⟨S_, .f32⟩
  | 57 => ⟨S100000, .f32⟩
  | 58 => ⟨S1700000x1, .i32⟩
  | 59 => ⟨S100000, .f32⟩
  | 60 => ⟨S_, .f32⟩
  | 61 => ⟨S100000, .f32⟩
  | 62 => ⟨S100000, .i1⟩
  | 63 => ⟨S100000, .f32⟩
  | 64 => ⟨S_, .f32⟩
  | 65 => ⟨S_, .f32⟩
  | 66 => ⟨S100000, .f32⟩
  | 67 => ⟨S100000, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S1700000, .f32⟩
  | 87 => ⟨S100000x64, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x64, .f32⟩
  | 97 => ⟨S1700000x1, .f32⟩
  | 98 => ⟨S1700000x64, .f32⟩
  | 99 => ⟨S1700000x64, .f32⟩
  | 100 => ⟨S_, .f32⟩
  | 101 => ⟨S100000x64, .f32⟩
  | 102 => ⟨S1700000x1, .i32⟩
  | 103 => ⟨S100000x64, .f32⟩
  | 104 => ⟨S1x64, .f32⟩
  | 105 => ⟨S100000x64, .f32⟩
  | 106 => ⟨S100000x64, .f32⟩
  | 107 => ⟨S1x100000x64, .f32⟩
  | 108 => ⟨S1x100000x64, .f32⟩
  | 109 => ⟨S2x100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_c_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_20 : Ref sig .tc := ⟨.hbm, 126, rfl⟩
abbrev main_v88 : Ref sig .tc := ⟨.hbm, 127, rfl⟩
abbrev main_cst_21 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_23 : Ref sig .tc := ⟨.hbm, 136, rfl⟩
abbrev main_call3_v0 : Ref sig .tc := ⟨.hbm, 137, rfl⟩
abbrev main_call3_v1 : Ref sig .tc := ⟨.hbm, 138, rfl⟩
abbrev main_v95 : Ref sig .tc := ⟨.hbm, 139, rfl⟩
abbrev main_c_24 : Ref sig .tc := ⟨.hbm, 140, rfl⟩
abbrev main_v96 : Ref sig .tc := ⟨.hbm, 141, rfl⟩
abbrev main_v97 : Ref sig .tc := ⟨.hbm, 142, rfl⟩
abbrev main_c_25 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_c_26 : Ref sig .tc := ⟨.hbm, 149, rfl⟩
abbrev main_v103 : Ref sig .tc := ⟨.hbm, 150, rfl⟩
abbrev main_v104 : Ref sig .tc := ⟨.hbm, 151, rfl⟩
abbrev main_c_27 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_28 : Ref sig .tc := ⟨.hbm, 160, rfl⟩
abbrev main_v112 : Ref sig .tc := ⟨.hbm, 161, rfl⟩
abbrev main_v113 : Ref sig .tc := ⟨.hbm, 162, rfl⟩
abbrev main_c_29 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_30 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_call4_cst : Ref sig .tc := ⟨.hbm, 179, rfl⟩
abbrev main_call4_v0 : Ref sig .tc := ⟨.hbm, 180, rfl⟩
abbrev main_v128 : Ref sig .tc := ⟨.hbm, 181, rfl⟩
abbrev main_cst_31 : Ref sig .tc := ⟨.hbm, 182, rfl⟩
abbrev main_v129 : Ref sig .tc := ⟨.hbm, 183, rfl⟩
abbrev main_cst_32 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_33 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_34 : Ref sig .tc := ⟨.hbm, 192, rfl⟩
abbrev main_call5_v0 : Ref sig .tc := ⟨.hbm, 193, rfl⟩
abbrev main_call5_v1 : Ref sig .tc := ⟨.hbm, 194, rfl⟩
abbrev main_v136 : Ref sig .tc := ⟨.hbm, 195, rfl⟩
abbrev main_c_35 : Ref sig .tc := ⟨.hbm, 196, rfl⟩
abbrev main_v137 : Ref sig .tc := ⟨.hbm, 197, rfl⟩
abbrev main_v138 : Ref sig .tc := ⟨.hbm, 198, rfl⟩
abbrev main_c_36 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_c_37 : Ref sig .tc := ⟨.hbm, 205, rfl⟩
abbrev main_v144 : Ref sig .tc := ⟨.hbm, 206, rfl⟩
abbrev main_v145 : Ref sig .tc := ⟨.hbm, 207, rfl⟩
abbrev main_c_38 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_c_39 : Ref sig .tc := ⟨.hbm, 216, rfl⟩
abbrev main_v153 : Ref sig .tc := ⟨.hbm, 217, rfl⟩
abbrev main_v154 : Ref sig .tc := ⟨.hbm, 218, rfl⟩
abbrev main_c_40 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_41 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x64_S1x100000x64_1_2 : S100000x64.BroadcastsInDim S1x100000x64 (![1, 2] : Fin 2 → Fin S1x100000x64.rank)
  concatenates_S1x100000x64_S1x100000x64_S2x100000x64_d0 : Shape.Concatenates [S1x100000x64, S1x100000x64] S2x100000x64 0
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's whole run, with its last boundary kept: every weakly fair execution of the program
  (three stretches of host operations, then four pipelined regions with a stretch after each) terminates without
  a fault, and in its final state every buffer that is not a staging buffer holds what the fold of the stretches
  and the regions' write-backs leaves there (the contents named `W11`). The frame claim keeps of this only the
  argument buffers; the value claim needs the result buffer, so the same run is stated here with all of them.
-/
import proofs.«148197_j81801947120042_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its last boundary: in every final state each unscoped buffer of each core holds the fold's last
    contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Gen

end
-- ==== Proof.RegionFns.lean ====
/-
  The two whole-array functions the kernel's regions compute, index by index, at the extended reals:
  a row-scaled matrix product, and a row scaling followed by a bias row (with or without the maximum with zero).
-/
import Idealize.ShloMosaic.Lib.ValueIdx
import Idealize.ShloMosaic.PureOps.Ideal.Laws

noncomputable section

namespace Cert.KernelRegions

open Idealize.ShloMosaic Idealize.ShloMosaic.ValueIdx

/-- `(n, q) ↦ (∑ k, X (n, k) * W (k, q)) * D (n, 0)`. -/
def scaledProduct (X : (⟨2, ![100000, 128]⟩ : Shape).Idx → EReal) (W : (⟨2, ![128, 128]⟩ : Shape).Idx → EReal)
    (D : (⟨2, ![100000, 1]⟩ : Shape).Idx → EReal) : (⟨2, ![100000, 128]⟩ : Shape).Idx → EReal :=
  fun i => (∑ k : Fin 128, X (ix2 (i 0) k) * W (ix2 k (i 1))) * D (ix2 (i 0) (0 : Fin 1))

/-- `(n, q) ↦ A (n, q) * D (n, 0) + B (0, q)`. -/
def scaledBias (A : (⟨2, ![100000, 128]⟩ : Shape).Idx → EReal) (B : (⟨2, ![1, 128]⟩ : Shape).Idx → EReal)
    (D : (⟨2, ![100000, 1]⟩ : Shape).Idx → EReal) : (⟨2, ![100000, 128]⟩ : Shape).Idx → EReal :=
  fun i => A (ix2 (i 0) (i 1)) * D (ix2 (i 0) (0 : Fin 1)) + B (ix2 (0 : Fin 1) (i 1))

/-- The same followed by the maximum with zero. -/
def scaledBiasPos (A : (⟨2, ![100000, 128]⟩ : Shape).Idx → EReal) (B : (⟨2, ![1, 128]⟩ : Shape).Idx → EReal)
    (D : (⟨2, ![100000, 1]⟩ : Shape).Idx → EReal) : (⟨2, ![100000, 128]⟩ : Shape).Idx → EReal :=
  fun i => max (A (ix2 (i 0) (i 1)) * D (ix2 (i 0) (0 : Fin 1)) + B (ix2 (0 : Fin 1) (i 1))) 0

/-- The row-scaled product at entry `(r, q)`. -/
theorem scaledProduct_apply (X : (⟨2, ![100000, 128]⟩ : Shape).Idx → EReal) (W : (⟨2, ![128, 128]⟩ : Shape).Idx → EReal)
    (D : (⟨2, ![100000, 1]⟩ : Shape).Idx → EReal) (r : Fin 100000) (q : Fin 128) :
    scaledProduct X W D (ix2 r q) = (∑ k : Fin 128, X (ix2 r k) * W (ix2 k q)) * D (ix2 r (0 : Fin 1)) := rfl

/-- The scaled rows plus bias at entry `(r, q)`. -/
theorem scaledBias_apply (A : (⟨2, ![100000, 128]⟩ : Shape).Idx → EReal) (B : (⟨2, ![1, 128]⟩ : Shape).Idx → EReal)
    (D : (⟨2, ![100000, 1]⟩ : Shape).Idx → EReal) (r : Fin 100000) (q : Fin 128) :
    scaledBias A B D (ix2 r q) = A (ix2 r q) * D (ix2 r (0 : Fin 1)) + B (ix2 (0 : Fin 1) q) := rfl

/-- The same with the maximum against zero, at entry `(r, q)`. -/
theorem scaledBiasPos_apply (A : (⟨2, ![100000, 128]⟩ : Shape).Idx → EReal) (B : (⟨2, ![1, 128]⟩ : Shape).Idx → EReal)
    (D : (⟨2, ![100000, 1]⟩ : Shape).Idx → EReal) (r : Fin 100000) (q : Fin 128) :
    scaledBiasPos A B D (ix2 r q) = max (A (ix2 r q) * D (ix2 r (0 : Fin 1)) + B (ix2 (0 : Fin 1) q)) 0 := rfl

/-- The zero offset of a whole-buffer access, as a function. -/
theorem hz2 : (![0, 0] : Fin 2 → Nat) = fun _ => 0 := funext fun a => by fin_cases a <;> rfl

end Cert.KernelRegions

end
-- ==== Proof.KernelStages.lean ====
/-
  The idealized kernel program, stage by stage, as whole-array functions of its ten argument arrays.

  The program takes node features `a0` (100000 x 128), an edge array `a1` (2 x 1600000: row 0 the sources, row 1 the
  targets), and two sets of layer parameters (`a2 … a5` and `a6 … a9`). It appends one self-edge per node to the
  edge list, counts the edges ending in each node, and takes the inverse square root of that degree as the node's
  weight `d` (zero where the degree is not positive). With `A X` the sum of the rows `X (src e)` over the edges `e`
  ending in a node, it computes, for both parameter sets at once (their matrices side by side, resp. as diagonal
  blocks),

      F0 = (a0 · W1) ⊙ d,   F1 = max (A F0 ⊙ d + b1) 0,   F2 = (F1 · W2) ⊙ d,   F3 = A F2 ⊙ d + b2,

  and returns the two 64-column halves of `F3` stacked. Each definition below is one of these stages, written with
  the program's own shapes and dimension records so that it is, term for term, what the program's host operations
  and the regions' results compose to.
-/
import proofs.«148197_j81801947120042_2_alg».proof.KernelIdeal
import proofs.«148197_j81801947120042_2_alg».proof.Proof.RegionFns

noncomputable section

namespace Cert.KernelStages

open Idealize.ShloMosaic
open Cert.KernelIdeal Cert.KernelRegions
open Cert.KernelIdeal.Facts₀

variable [Facts₀]

/-- Contents, at the extended reals, of a buffer of the given shape and element type. -/
local notation "𝔸[" S ", " e "]" => BufTy.Contents (Elt Ideal) (BufTy.mk S e)

/-- The source node of every edge, followed by one self-edge per node: row 0 of the edge array, then `0 … 99999`. -/
def srcArr (a1 : 𝔸[S2x1600000, .i32]) : 𝔸[S1700000, .i32] :=
  concatenate S1700000 0
    [⟨S1600000, shapeCast S1600000 (extractStridedSlice S1x1600000 ![0, 0] a1 slices_S2x1600000_S1x1600000_0_0)
        shapeCasts_S1x1600000_S1600000⟩,
     ⟨S100000, iotaInDim S100000 32 0⟩] concatenates_S1600000_S100000_S1700000_d0

/-- The target node of every edge, followed by one self-edge per node: row 1 of the edge array, then `0 … 99999`. -/
def dstArr (a1 : 𝔸[S2x1600000, .i32]) : 𝔸[S1700000, .i32] :=
  concatenate S1700000 0
    [⟨S1600000, shapeCast S1600000 (extractStridedSlice S1x1600000 ![1, 0] a1 slices_S2x1600000_S1x1600000_1_0)
        shapeCasts_S1x1600000_S1600000⟩,
     ⟨S100000, iotaInDim S100000 32 0⟩] concatenates_S1600000_S100000_S1700000_d0

/-- The targets as a column of scatter indices. -/
def dstCol (a1 : 𝔸[S2x1600000, .i32]) : 𝔸[S1700000x1, .i32] :=
  broadcastInDim S1700000x1 ![0] bcast_S1700000_S1700000x1_0 (dstArr a1)

/-- The degree of every node: the number of edges (self-edges included) that end in it. -/
def degArr (a1 : 𝔸[S2x1600000, .i32]) : 𝔸[S100000, .f32] :=
  Host.scatterAdd (F := Ideal) scatter_S100000_S1700000x1_S1700000_n_0_0_1
    (broadcastInDim S100000 ![] bcast_S_S100000 (constant (F := Ideal) S_ .f32 0x00000000#32))
    (dstCol a1)
    (broadcastInDim S1700000 ![] bcast_S_S1700000 (constant (F := Ideal) S_ .f32 0x3F800000#32))

/-- The scalar zero. -/
def zeroScalar : 𝔸[S_, .f32] := constant (F := Ideal) S_ .f32 0x00000000#32

/-- Where the degree is positive. -/
def degPos (a1 : 𝔸[S2x1600000, .i32]) : 𝔸[S100000, .i1] :=
  cmpf (F := Ideal) (φ := .f32) .ogt (degArr a1) (broadcastInDim S100000 ![] bcast_S_S100000 zeroScalar)

/-- The inverse square root of the degree. -/
def degRsqrt (a1 : 𝔸[S2x1600000, .i32]) : 𝔸[S100000, .f32] :=
  Host.rsqrt (F := Ideal) (φ := .f32) (degArr a1)

/-- The node weights: the inverse square root of the degree where it is positive, zero elsewhere. -/
def dinvArr (a1 : 𝔸[S2x1600000, .i32]) : 𝔸[S100000, .f32] :=
  select (degPos a1) (degRsqrt a1) (broadcastInDim S100000 ![] bcast_S_S100000 zeroScalar)

/-- The node weights as a column. -/
def dcol (a1 : 𝔸[S2x1600000, .i32]) : 𝔸[S100000x1, .f32] :=
  shapeCast S100000x1 (dinvArr a1) shapeCasts_S100000_S100000x1

/-- The sources, a negative one counted from the end, as a column of gather indices. -/
def srcnCol (a1 : 𝔸[S2x1600000, .i32]) : 𝔸[S1700000x1, .i32] :=
  broadcastInDim S1700000x1 ![0] bcast_S1700000_S1700000x1_0
    (select (cmpi .slt (srcArr a1) (broadcastInDim S1700000 ![] bcast_S_S1700000 (constantI S_ 32 0#32)))
      (addi (srcArr a1) (broadcastInDim S1700000 ![] bcast_S_S1700000 (constantI S_ 32 100000#32)))
      (srcArr a1))

/-- The two first-layer weight matrices side by side. -/
def W1cat (a2 a6 : 𝔸[S128x64, .f32]) : 𝔸[S128x128, .f32] :=
  concatenate S128x128 1 [⟨S128x64, a2⟩, ⟨S128x64, a6⟩] concatenates_S128x64_S128x64_S128x128_d1

/-- The two first-layer bias vectors end to end. -/
def b1cat (a3 a7 : 𝔸[S64, .f32]) : 𝔸[S128, .f32] :=
  concatenate S128 0 [⟨S64, a3⟩, ⟨S64, a7⟩] concatenates_S64_S64_S128_d0

/-- The two second-layer weight matrices as the diagonal blocks of a 128 x 128 matrix of zeros. -/
def W2bd (a4 a8 : 𝔸[S64x64, .f32]) : 𝔸[S128x128, .f32] :=
  Host.scatter scatter_S128x128_S2_S64x64_01_n_01_0 (fun _ b => b)
    (Host.scatter scatter_S128x128_S2_S64x64_01_n_01_0 (fun _ b => b)
      (broadcastInDim S128x128 ![] bcast_S_S128x128 (constant (F := Ideal) S_ .f32 0x00000000#32))
      (concatenate S2 0
        [⟨S1, broadcastInDim S1 ![] bcast_S_S1 (constantI S_ 32 0#32)⟩,
         ⟨S1, broadcastInDim S1 ![] bcast_S_S1 (constantI S_ 32 0#32)⟩] concatenates_S1_S1_S2_d0)
      a4)
    (concatenate S2 0
      [⟨S1, broadcastInDim S1 ![] bcast_S_S1 (constantI S_ 32 64#32)⟩,
       ⟨S1, broadcastInDim S1 ![] bcast_S_S1 (constantI S_ 32 64#32)⟩] concatenates_S1_S1_S2_d0)
    a8

/-- The two second-layer bias vectors end to end. -/
def b2cat (a5 a9 : 𝔸[S64, .f32]) : 𝔸[S128, .f32] :=
  concatenate S128 0 [⟨S64, a5⟩, ⟨S64, a9⟩] concatenates_S64_S64_S128_d0

/-- Neighbourhood sums over any lists of sources and targets: row `n` of the result is the sum of the rows
    `T (src e)` (a negative source counted from the end) over the positions `e` with `dst e = n`. -/
def aggOf (T : 𝔸[S100000x128, .f32]) (src dst : 𝔸[S1700000, .i32]) : 𝔸[S100000x128, .f32] :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (Host.gather gather_S100000x128_S1700000x1_S1700000x128_1_0_n_n_0_1_1128 T
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32)))
          src)))

/-- Neighbourhood sums: row `n` of the result is the sum of the rows `T (src e)` over the edges `e` that end in `n`. -/
def agg (T : 𝔸[S100000x128, .f32]) (a1 : 𝔸[S2x1600000, .i32]) : 𝔸[S100000x128, .f32] :=
  Host.scatterAdd (F := Ideal) scatter_S100000x128_S1700000x1_S1700000x128_1_0_0_1
    (broadcastInDim S100000x128 ![] bcast_S_S100000x128 (constant (F := Ideal) S_ .f32 0x00000000#32))
    (dstCol a1)
    (Host.gather gather_S100000x128_S1700000x1_S1700000x128_1_0_n_n_0_1_1128 T (srcnCol a1))

/-- The neighbourhood sums are the sums over the edge array's own sources and targets. -/
theorem agg_eq (T : 𝔸[S100000x128, .f32]) (a1 : 𝔸[S2x1600000, .i32]) :
    agg T a1 = aggOf T (srcArr a1) (dstArr a1) := rfl

/-- A bias vector as a row. -/
def biasRow (b : 𝔸[S128, .f32]) : 𝔸[S1x128, .f32] := shapeCast S1x128 b shapeCasts_S128_S1x128

/-- After the first region: the features times the first-layer weights, rows scaled by the node weights. -/
def F0 (a0 : 𝔸[S100000x128, .f32]) (a1 : 𝔸[S2x1600000, .i32]) (a2 a6 : 𝔸[S128x64, .f32]) : 𝔸[S100000x128, .f32] :=
  scaledProduct a0 (W1cat a2 a6) (dcol a1)

/-- After the second region: the aggregate of `F0`, scaled, plus the first-layer bias, cut off at zero. -/
def F1 (a0 : 𝔸[S100000x128, .f32]) (a1 : 𝔸[S2x1600000, .i32]) (a2 : 𝔸[S128x64, .f32]) (a3 : 𝔸[S64, .f32])
    (a6 : 𝔸[S128x64, .f32]) (a7 : 𝔸[S64, .f32]) : 𝔸[S100000x128, .f32] :=
  scaledBiasPos (agg (F0 a0 a1 a2 a6) a1) (biasRow (b1cat a3 a7)) (dcol a1)

/-- After the third region: `F1` times the block-diagonal second-layer weights, rows scaled. -/
def F2 (a0 : 𝔸[S100000x128, .f32]) (a1 : 𝔸[S2x1600000, .i32]) (a2 : 𝔸[S128x64, .f32]) (a3 : 𝔸[S64, .f32])
    (a4 : 𝔸[S64x64, .f32]) (a6 : 𝔸[S128x64, .f32]) (a7 : 𝔸[S64, .f32]) (a8 : 𝔸[S64x64, .f32]) :
    𝔸[S100000x128, .f32] :=
  scaledProduct (F1 a0 a1 a2 a3 a6 a7) (W2bd a4 a8) (dcol a1)

/-- After the fourth region: the aggregate of `F2`, scaled, plus the second-layer bias. -/
def F3 (a0 : 𝔸[S100000x128, .f32]) (a1 : 𝔸[S2x1600000, .i32]) (a2 : 𝔸[S128x64, .f32]) (a3 : 𝔸[S64, .f32])
    (a4 : 𝔸[S64x64, .f32]) (a5 : 𝔸[S64, .f32]) (a6 : 𝔸[S128x64, .f32]) (a7 : 𝔸[S64, .f32])
    (a8 : 𝔸[S64x64, .f32]) (a9 : 𝔸[S64, .f32]) : 𝔸[S100000x128, .f32] :=
  scaledBias (agg (F2 a0 a1 a2 a3 a4 a6 a7 a8) a1) (biasRow (b2cat a5 a9)) (dcol a1)

/-- The two halves of a 128-column array stacked as two 100000 x 64 slabs. -/
def split (T : 𝔸[S100000x128, .f32]) : 𝔸[S2x100000x64, .f32] :=
  concatenate S2x100000x64 0
    [⟨S1x100000x64, broadcastInDim S1x100000x64 ![1, 2] bcast_S100000x64_S1x100000x64_1_2
        (extractStridedSlice S100000x64 ![0, 0] T slices_S100000x128_S100000x64_0_0)⟩,
     ⟨S1x100000x64, broadcastInDim S1x100000x64 ![1, 2] bcast_S100000x64_S1x100000x64_1_2
        (extractStridedSlice S100000x64 ![0, 64] T slices_S100000x128_S100000x64_0_64)⟩]
    concatenates_S1x100000x64_S1x100000x64_S2x100000x64_d0

/-- What the program returns, as one function of its ten argument arrays. -/
def result (a0 : 𝔸[S100000x128, .f32]) (a1 : 𝔸[S2x1600000, .i32]) (a2 : 𝔸[S128x64, .f32]) (a3 : 𝔸[S64, .f32])
    (a4 : 𝔸[S64x64, .f32]) (a5 : 𝔸[S64, .f32]) (a6 : 𝔸[S128x64, .f32]) (a7 : 𝔸[S64, .f32])
    (a8 : 𝔸[S64x64, .f32]) (a9 : 𝔸[S64, .f32]) : 𝔸[S2x100000x64, .f32] :=
  split (F3 a0 a1 a2 a3 a4 a5 a6 a7 a8 a9)

end Cert.KernelStages

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.LibPlainDot

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.LibPlainDot

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.KernelBodies.lean ====
/-
  What each of the four kernel bodies stores, read at one entry, at the extended reals.

  Two kinds of body. The first multiplies its row block by a 128 x 128 weight matrix (a change of float format is
  the identity here, and the matrix unit accumulating into zero is the plain sum of products) and scales row `p`
  by the entry `p` of a column `d`: entry `(p, q)` is `(∑ k, x (p, k) * w (k, q)) * d (p, 0)`.
  The second scales row `p` of its block by `d (p, 0)` and adds the bias row: entry `(p, q)` is
  `a (p, q) * d (p, 0) + b (0, q)`, the first time followed by the maximum with zero.
-/
import proofs.«148197_j81801947120042_2_alg».proof.Proof.Gen.KernelIdeal.Skeleton
import proofs.«148197_j81801947120042_2_alg».proof.Proof.LibPlainDot
import proofs.«148197_j81801947120042_2_alg».proof.Proof.LibColumnBroadcast
import Idealize.ShloMosaic.Lib.ValueLayout
import Idealize.ShloMosaic.PureOps.Ideal.Laws

noncomputable section

namespace Cert.KernelBodies

open Idealize.ShloMosaic Idealize.ShloMosaic.ValueIdx Cert.KernelIdeal Cert.KernelIdeal.Gen

/-- The first product body at entry `(p, q)`. -/
theorem pay0_apply (x0 : FVec Ideal S5000x128 .f32) (x1 : FVec Ideal S128x128 .f32) (x2 : FVec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  simp only [shapeCast_self]
  refine (mulf_apply _ _ _).trans ?_
  exact congrArg₂ (· * ·) (Cert.LibPlainDot.matmul_plain_zero_apply none _ _ p q)
    (Cert.Layout.broadcastTo_a1_ab_apply _ _ p q)

/-- The second product body at entry `(p, q)`: the same function. -/
theorem pay2_apply (x0 : FVec Ideal S5000x128 .f32) (x1 : FVec Ideal S128x128 .f32) (x2 : FVec Ideal S5000x1 .f32)
    (p : Fin 5000) (q : Fin 128) :
    k2_pay1 (F := Ideal) x0 x1 x2 (ix2 p q)
      = (∑ k : Fin 128, x0 (ix2 p k) * x1 (ix2 k q)) * x2 (ix2 p (0 : Fin 1)) := by
  unfold k2_pay1
  simp only [shapeCast_self]
  refine (mulf_apply _ _ _).trans ?_
  exact congrArg₂ (· * ·) (Cert.LibPlainDot.matmul_plain_zero_apply none _ _ p q)
    (Cert.Layout.broadcastTo_a1_ab_apply _ _ p q)

/-- The first scale-and-bias body at entry `(p, q)`, with its maximum against zero. -/
theorem pay1_apply (a : FVec Ideal S5000x128 .f32) (d : FVec Ideal S5000x1 .f32) (b : FVec Ideal S1x128 .f32)
    (p : Fin 5000) (q : Fin 128) :
    k1_pay1 (F := Ideal) a d b (ix2 p q)
      = max (a (ix2 p q) * d (ix2 p (0 : Fin 1)) + b (ix2 (0 : Fin 1) q)) 0 := by
  unfold k1_pay1
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply _ _ p q)
  refine (mulf_apply _ _ _).trans ?_
  exact congrArg (a (ix2 p q) * ·) (Cert.Layout.broadcastTo_a1_ab_apply _ _ p q)

/-- The second scale-and-bias body at entry `(p, q)`. -/
theorem pay3_apply (a : FVec Ideal S5000x128 .f32) (d : FVec Ideal S5000x1 .f32) (b : FVec Ideal S1x128 .f32)
    (p : Fin 5000) (q : Fin 128) :
    k3_pay1 (F := Ideal) a d b (ix2 p q)
      = a (ix2 p q) * d (ix2 p (0 : Fin 1)) + b (ix2 (0 : Fin 1) q) := by
  unfold k3_pay1
  simp only [shapeCast_self]
  refine (addf_apply _ _ _).trans ?_
  refine congrArg₂ (· + ·) ?_ (broadcastTo_1b_ab_apply _ _ p q)
  refine (mulf_apply _ _ _).trans ?_
  exact congrArg (a (ix2 p q) * ·) (Cert.Layout.broadcastTo_a1_ab_apply _ _ p q)

end Cert.KernelBodies

end
-- ==== Proof.Region0.lean ====
/-
  Region 0 of the idealized kernel as one function of the arrays it finds.

  The region's grid has 20 points; point `t` stages rows `5000 t … 5000 t + 4999` of its row operand and of the
  column of node weights, the whole 128 x 128 weight matrix, runs the body and writes the same rows of the result
  back. So the result array, whatever it held before, ends as the row-scaled product

      (n, q) ↦ (∑ k, X (n, k) * W (k, q)) * D (n, 0)

  of the three arrays as the region finds them: every block written is that function's restriction to its rows, and
  the 20 blocks cover the array.
-/
import proofs.«148197_j81801947120042_2_alg».proof.Proof.Gen.KernelIdeal.Frame
import proofs.«148197_j81801947120042_2_alg».proof.Proof.KernelBodies
import proofs.«148197_j81801947120042_2_alg».proof.Proof.RegionFns
import Idealize.ShloMosaic.Lib.Pipeline.Value

set_option maxRecDepth 16384

noncomputable section

namespace Cert.KernelRegions

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The index maps of region 0, decided over its 20 points: the row windows move with the point, the weight
    matrix stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 20 :=
  (by decide +kernel : ∀ t : Fin grid0.N, _)

/-- Entry `(p, k)` of the row operand's block at point `t` is the array's entry `(5000 t + p, k)`. -/
theorem blk0_0 (c : Dev nD) (t : Fin cfg0.N) (p : Fin 5000) (k : Fin 128) (r : Fin 100000)
    (hr : r.val = t.val * 5000 + p.val) :
    iblk0 V c 0 t (ix2 p k) = V c main_arg0 (ix2 r k) := by
  obtain ⟨e0, e1, -⟩ := idx0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight matrix's block at any point is the whole matrix. -/
theorem blk0_1 (c : Dev nD) (t : Fin cfg0.N) (k : Fin 128) (q : Fin 128) :
    iblk0 V c 1 t (ix2 k q) = V c main_v16 (ix2 k q) := by
  obtain ⟨-, -, e2, e3, -⟩ := idx0 t
  show V c main_v16 (((cfg0.win 1).blk t).view.emb (ix2 k q)) = V c main_v16 (ix2 k q)
  refine congrArg (V c main_v16) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry `(p, 0)` of the node weights' block at point `t` is the column's entry `(5000 t + p, 0)`. -/
theorem blk0_2 (c : Dev nD) (t : Fin cfg0.N) (p : Fin 5000) (r : Fin 100000)
    (hr : r.val = t.val * 5000 + p.val) :
    iblk0 V c 2 t (ix2 p (0 : Fin 1)) = V c main_v15 (ix2 r (0 : Fin 1)) := by
  obtain ⟨-, -, -, -, e4, e5, -⟩ := idx0 t
  show V c main_v15 (((cfg0.win 2).blk t).view.emb (ix2 p (0 : Fin 1))) = V c main_v15 (ix2 r (0 : Fin 1))
  refine congrArg (V c main_v15) (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- What point `t` writes back is block `t` of the row-scaled product of the arrays the region finds. -/
theorem flushed0 (c : Dev nD) (t : Fin cfg0.N) :
    (dat0 V c).flushed 3 t = ((cfg0.win 3).blk t).view.read (Elt Ideal)
      (scaledProduct (V c main_arg0) (V c main_v16) (V c main_v15)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2,
    View.ld_unit_zero (S := S5000x1) hz2]
  obtain ⟨-, -, -, -, -, -, e6, e7, ht⟩ := idx0 t
  funext j
  obtain ⟨p, q, rfl⟩ : ∃ (p : Fin 5000) (q : Fin 128), j = ix2 p q := ⟨j 0, j 1, eq_ix2 j⟩
  have hp := p.isLt
  let r : Fin 100000 := ⟨t.val * 5000 + p.val, by omega⟩
  have hemb : ((cfg0.win 3).blk t).view.emb (ix2 p q) = ix2 r q := by
    funext a; refine Fin.ext ?_
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = scaledProduct (V c main_arg0) (V c main_v16) (V c main_v15) (((cfg0.win 3).blk t).view.emb (ix2 p q))
  rw [hemb]
  refine (Cert.KernelBodies.pay0_apply _ _ _ p q).trans ?_
  refine Eq.trans ?_ (scaledProduct_apply _ _ _ r q).symm
  rw [blk0_2 V c t p r rfl]
  refine congrArg (· * _) (Finset.sum_congr rfl fun k _ => ?_)
  rw [blk0_0 V c t p k r rfl, blk0_1 V c t k q]

/-- An index is in point `t`'s block iff each coordinate is in the block's range. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Every block of rows is some point's. -/
theorem onto0 : ∀ q : Fin 20, ∃ t : Fin cfg0.N, win0_3.index t = ![q.val, 0] :=
  (by decide +kernel : ∀ q : Fin 20, ∃ t : Fin grid0.N, win0_3.index t = ![q.val, 0])

/-- The 20 blocks cover the result array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after region 0: the row-scaled product of the arrays the region finds. -/
theorem final0 (c : Dev nD) :
    (dat0 V c).arrAt 3 cfg0.N = scaledProduct (V c main_arg0) (V c main_v16) (V c main_v15) :=
  (dat0 V c).arrAt_eq_of_cover 3 _ (fun t _ => flushed0 V c t) cover0

end Cert.KernelRegions

end
-- ==== Proof.Region1.lean ====
/-
  Region 1 of the idealized kernel as one function of the arrays it finds.

  The region's grid has 20 points; point `t` stages rows `5000 t … 5000 t + 4999` of the aggregated features and of
  the column of node weights, the whole bias row, runs the body and writes the same rows of the result back. So
  the result array ends as

      (n, q) ↦ max (A (n, q) * D (n, 0) + B (0, q)) 0

  of the three arrays as the region finds them: every block written is that function's restriction to its rows, and
  the 20 blocks cover the array.
-/
import proofs.«148197_j81801947120042_2_alg».proof.Proof.Gen.KernelIdeal.Frame
import proofs.«148197_j81801947120042_2_alg».proof.Proof.KernelBodies
import proofs.«148197_j81801947120042_2_alg».proof.Proof.RegionFns
import Idealize.ShloMosaic.Lib.Pipeline.Value

set_option maxRecDepth 16384

noncomputable section

namespace Cert.KernelRegions

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The index maps of region 1, decided over its 20 points: the row windows move with the point, the bias row
    stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 ∧ t.val < 20 :=
  (by decide +kernel : ∀ t : Fin grid1.N, _)

/-- Entry `(p, q)` of the aggregated features' block at point `t` is the array's entry `(5000 t + p, q)`. -/
theorem blk1_0 (c : Dev nD) (t : Fin cfg1.N) (p : Fin 5000) (q : Fin 128) (r : Fin 100000)
    (hr : r.val = t.val * 5000 + p.val) :
    iblk1 V c 0 t (ix2 p q) = V c main_v28 (ix2 r q) := by
  obtain ⟨e0, e1, -⟩ := idx1 t
  show V c main_v28 (((cfg1.win 0).blk t).view.emb (ix2 p q)) = V c main_v28 (ix2 r q)
  refine congrArg (V c main_v28) (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- The bias row's block at any point is the whole row. -/
theorem blk1_1 (c : Dev nD) (t : Fin cfg1.N) (q : Fin 128) :
    iblk1 V c 1 t (ix2 (0 : Fin 1) q) = V c main_v29 (ix2 (0 : Fin 1) q) := by
  obtain ⟨-, -, e2, e3, -⟩ := idx1 t
  show V c main_v29 (((cfg1.win 1).blk t).view.emb (ix2 (0 : Fin 1) q)) = V c main_v29 (ix2 (0 : Fin 1) q)
  refine congrArg (V c main_v29) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- Entry `(p, 0)` of the node weights' block at point `t` is the column's entry `(5000 t + p, 0)`. -/
theorem blk1_2 (c : Dev nD) (t : Fin cfg1.N) (p : Fin 5000) (r : Fin 100000)
    (hr : r.val = t.val * 5000 + p.val) :
    iblk1 V c 2 t (ix2 p (0 : Fin 1)) = V c main_v15 (ix2 r (0 : Fin 1)) := by
  obtain ⟨-, -, -, -, e4, e5, -⟩ := idx1 t
  show V c main_v15 (((cfg1.win 2).blk t).view.emb (ix2 p (0 : Fin 1))) = V c main_v15 (ix2 r (0 : Fin 1))
  refine congrArg (V c main_v15) (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- What point `t` writes back is block `t` of the region's function of the arrays it finds. -/
theorem flushed1 (c : Dev nD) (t : Fin cfg1.N) :
    (dat1 V c).flushed 3 t = ((cfg1.win 3).blk t).view.read (Elt Ideal)
      (scaledBiasPos (V c main_v28) (V c main_v29) (V c main_v15)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S1x128) hz2,
    View.ld_unit_zero (S := S5000x1) hz2]
  obtain ⟨-, -, -, -, -, -, e6, e7, ht⟩ := idx1 t
  funext j
  obtain ⟨p, q, rfl⟩ : ∃ (p : Fin 5000) (q : Fin 128), j = ix2 p q := ⟨j 0, j 1, eq_ix2 j⟩
  have hp := p.isLt
  let r : Fin 100000 := ⟨t.val * 5000 + p.val, by omega⟩
  have hemb : ((cfg1.win 3).blk t).view.emb (ix2 p q) = ix2 r q := by
    funext a; refine Fin.ext ?_
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (F := Ideal) (iblk1 V c 0 t) (iblk1 V c 2 t) (iblk1 V c 1 t) (ix2 p q)
    = scaledBiasPos (V c main_v28) (V c main_v29) (V c main_v15) (((cfg1.win 3).blk t).view.emb (ix2 p q))
  rw [hemb]
  refine (Cert.KernelBodies.pay1_apply _ _ _ p q).trans ?_
  refine Eq.trans ?_ (scaledBiasPos_apply _ _ _ r q).symm
  rw [blk1_0 V c t p q r rfl, blk1_1 V c t q, blk1_2 V c t p r rfl]

/-- An index is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v30).slice (win1_3.rect t)).set ↔ _
  rw [View.set_slice_whole, Rect.mem_set_unit]
  exact Iff.rfl

/-- Every block of rows is some point's. -/
theorem onto1 : ∀ q : Fin 20, ∃ t : Fin cfg1.N, win1_3.index t = ![q.val, 0] :=
  (by decide +kernel : ∀ q : Fin 20, ∃ t : Fin grid1.N, win1_3.index t = ![q.val, 0])

/-- The 20 blocks cover the result array. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after region 1. -/
theorem final1 (c : Dev nD) :
    (dat1 V c).arrAt 3 cfg1.N = scaledBiasPos (V c main_v28) (V c main_v29) (V c main_v15) :=
  (dat1 V c).arrAt_eq_of_cover 3 _ (fun t _ => flushed1 V c t) cover1

end Cert.KernelRegions

end
-- ==== Proof.Region2.lean ====
/-
  Region 2 of the idealized kernel as one function of the arrays it finds.

  The region's grid has 20 points; point `t` stages rows `5000 t … 5000 t + 4999` of its row operand and of the
  column of node weights, the whole 128 x 128 weight matrix, runs the body and writes the same rows of the result
  back. So the result array, whatever it held before, ends as the row-scaled product

      (n, q) ↦ (∑ k, X (n, k) * W (k, q)) * D (n, 0)

  of the three arrays as the region finds them: every block written is that function's restriction to its rows, and
  the 20 blocks cover the array.
-/
import proofs.«148197_j81801947120042_2_alg».proof.Proof.Gen.KernelIdeal.Frame
import proofs.«148197_j81801947120042_2_alg».proof.Proof.KernelBodies
import proofs.«148197_j81801947120042_2_alg».proof.Proof.RegionFns
import Idealize.ShloMosaic.Lib.Pipeline.Value

set_option maxRecDepth 16384

noncomputable section

namespace Cert.KernelRegions

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The index maps of region 2, decided over its 20 points: the row windows move with the point, the weight
    matrix stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 20 :=
  (by decide +kernel : ∀ t : Fin grid2.N, _)

/-- Entry `(p, k)` of the row operand's block at point `t` is the array's entry `(5000 t + p, k)`. -/
theorem blk2_0 (c : Dev nD) (t : Fin cfg2.N) (p : Fin 5000) (k : Fin 128) (r : Fin 100000)
    (hr : r.val = t.val * 5000 + p.val) :
    iblk2 V c 0 t (ix2 p k) = V c main_v30 (ix2 r k) := by
  obtain ⟨e0, e1, -⟩ := idx2 t
  show V c main_v30 (((cfg2.win 0).blk t).view.emb (ix2 p k)) = V c main_v30 (ix2 r k)
  refine congrArg (V c main_v30) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight matrix's block at any point is the whole matrix. -/
theorem blk2_1 (c : Dev nD) (t : Fin cfg2.N) (k : Fin 128) (q : Fin 128) :
    iblk2 V c 1 t (ix2 k q) = V c main_v39 (ix2 k q) := by
  obtain ⟨-, -, e2, e3, -⟩ := idx2 t
  show V c main_v39 (((cfg2.win 1).blk t).view.emb (ix2 k q)) = V c main_v39 (ix2 k q)
  refine congrArg (V c main_v39) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- Entry `(p, 0)` of the node weights' block at point `t` is the column's entry `(5000 t + p, 0)`. -/
theorem blk2_2 (c : Dev nD) (t : Fin cfg2.N) (p : Fin 5000) (r : Fin 100000)
    (hr : r.val = t.val * 5000 + p.val) :
    iblk2 V c 2 t (ix2 p (0 : Fin 1)) = V c main_v15 (ix2 r (0 : Fin 1)) := by
  obtain ⟨-, -, -, -, e4, e5, -⟩ := idx2 t
  show V c main_v15 (((cfg2.win 2).blk t).view.emb (ix2 p (0 : Fin 1))) = V c main_v15 (ix2 r (0 : Fin 1))
  refine congrArg (V c main_v15) (funext fun a => Fin.ext ?_)
  match a with
  | ⟨0, _⟩ => show win2_2.index t (0 : Fin 2) * 5000 + 1 * p.val = r.val; omega
  | ⟨1, _⟩ => show win2_2.index t (1 : Fin 2) * 1 + 1 * 0 = 0; omega

/-- What point `t` writes back is block `t` of the row-scaled product of the arrays the region finds. -/
theorem flushed2 (c : Dev nD) (t : Fin cfg2.N) :
    (dat2 V c).flushed 3 t = ((cfg2.win 3).blk t).view.read (Elt Ideal)
      (scaledProduct (V c main_v30) (V c main_v39) (V c main_v15)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2,
    View.ld_unit_zero (S := S5000x1) hz2]
  obtain ⟨-, -, -, -, -, -, e6, e7, ht⟩ := idx2 t
  funext j
  obtain ⟨p, q, rfl⟩ : ∃ (p : Fin 5000) (q : Fin 128), j = ix2 p q := ⟨j 0, j 1, eq_ix2 j⟩
  have hp := p.isLt
  let r : Fin 100000 := ⟨t.val * 5000 + p.val, by omega⟩
  have hemb : ((cfg2.win 3).blk t).view.emb (ix2 p q) = ix2 r q := by
    funext a; refine Fin.ext ?_
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (F := Ideal) (iblk2 V c 0 t) (iblk2 V c 1 t) (iblk2 V c 2 t) (ix2 p q)
    = scaledProduct (V c main_v30) (V c main_v39) (V c main_v15) (((cfg2.win 3).blk t).view.emb (ix2 p q))
  rw [hemb]
  refine (Cert.KernelBodies.pay2_apply _ _ _ p q).trans ?_
  refine Eq.trans ?_ (scaledProduct_apply _ _ _ r q).symm
  rw [blk2_2 V c t p r rfl]
  refine congrArg (· * _) (Finset.sum_congr rfl fun k _ => ?_)
  rw [blk2_0 V c t p k r rfl, blk2_1 V c t k q]

/-- An index is in point `t`'s block iff each coordinate is in the block's range. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v41).slice (win2_3.rect t)).set ↔ _
  rw [View.set_slice_whole, Rect.mem_set_unit]
  exact Iff.rfl

/-- Every block of rows is some point's. -/
theorem onto2 : ∀ q : Fin 20, ∃ t : Fin cfg2.N, win2_3.index t = ![q.val, 0] :=
  (by decide +kernel : ∀ q : Fin 20, ∃ t : Fin grid2.N, win2_3.index t = ![q.val, 0])

/-- The 20 blocks cover the result array. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after region 2: the row-scaled product of the arrays the region finds. -/
theorem final2 (c : Dev nD) :
    (dat2 V c).arrAt 3 cfg2.N = scaledProduct (V c main_v30) (V c main_v39) (V c main_v15) :=
  (dat2 V c).arrAt_eq_of_cover 3 _ (fun t _ => flushed2 V c t) cover2

end Cert.KernelRegions

end
-- ==== Proof.Region3.lean ====
/-
  Region 3 of the idealized kernel as one function of the arrays it finds.

  The region's grid has 20 points; point `t` stages rows `5000 t … 5000 t + 4999` of the aggregated features and of
  the column of node weights, the whole bias row, runs the body and writes the same rows of the result back. So
  the result array ends as

      (n, q) ↦ A (n, q) * D (n, 0) + B (0, q)

  of the three arrays as the region finds them: every block written is that function's restriction to its rows, and
  the 20 blocks cover the array.
-/
import proofs.«148197_j81801947120042_2_alg».proof.Proof.Gen.KernelIdeal.Frame
import proofs.«148197_j81801947120042_2_alg».proof.Proof.KernelBodies
import proofs.«148197_j81801947120042_2_alg».proof.Proof.RegionFns
import Idealize.ShloMosaic.Lib.Pipeline.Value

set_option maxRecDepth 16384

noncomputable section

namespace Cert.KernelRegions

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The index maps of region 3, decided over its 20 points: the row windows move with the point, the bias row
    stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 ∧ t.val < 20 :=
  (by decide +kernel : ∀ t : Fin grid3.N, _)

/-- Entry `(p, q)` of the aggregated features' block at point `t` is the array's entry `(5000 t + p, q)`. -/
theorem blk3_0 (c : Dev nD) (t : Fin cfg3.N) (p : Fin 5000) (q : Fin 128) (r : Fin 100000)
    (hr : r.val = t.val * 5000 + p.val) :
    iblk3 V c 0 t (ix2 p q) = V c main_v51 (ix2 r q) := by
  obtain ⟨e0, e1, -⟩ := idx3 t
  show V c main_v51 (((cfg3.win 0).blk t).view.emb (ix2 p q)) = V c main_v51 (ix2 r q)
  refine congrArg (V c main_v51) (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

/-- The bias row's block at any point is the whole row. -/
theorem blk3_1 (c : Dev nD) (t : Fin cfg3.N) (q : Fin 128) :
    iblk3 V c 1 t (ix2 (0 : Fin 1) q) = V c main_v52 (ix2 (0 : Fin 1) q) := by
  obtain ⟨-, -, e2, e3, -⟩ := idx3 t
  show V c main_v52 (((cfg3.win 1).blk t).view.emb (ix2 (0 : Fin 1) q)) = V c main_v52 (ix2 (0 : Fin 1) q)
  refine congrArg (V c main_v52) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- Entry `(p, 0)` of the node weights' block at point `t` is the column's entry `(5000 t + p, 0)`. -/
theorem blk3_2 (c : Dev nD) (t : Fin cfg3.N) (p : Fin 5000) (r : Fin 100000)
    (hr : r.val = t.val * 5000 + p.val) :
    iblk3 V c 2 t (ix2 p (0 : Fin 1)) = V c main_v15 (ix2 r (0 : Fin 1)) := by
  obtain ⟨-, -, -, -, e4, e5, -⟩ := idx3 t
  show V c main_v15 (((cfg3.win 2).blk t).view.emb (ix2 p (0 : Fin 1))) = V c main_v15 (ix2 r (0 : Fin 1))
  refine congrArg (V c main_v15) (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

/-- What point `t` writes back is block `t` of the region's function of the arrays it finds. -/
theorem flushed3 (c : Dev nD) (t : Fin cfg3.N) :
    (dat3 V c).flushed 3 t = ((cfg3.win 3).blk t).view.read (Elt Ideal)
      (scaledBias (V c main_v51) (V c main_v52) (V c main_v15)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S1x128) hz2,
    View.ld_unit_zero (S := S5000x1) hz2]
  obtain ⟨-, -, -, -, -, -, e6, e7, ht⟩ := idx3 t
  funext j
  obtain ⟨p, q, rfl⟩ : ∃ (p : Fin 5000) (q : Fin 128), j = ix2 p q := ⟨j 0, j 1, eq_ix2 j⟩
  have hp := p.isLt
  let r : Fin 100000 := ⟨t.val * 5000 + p.val, by omega⟩
  have hemb : ((cfg3.win 3).blk t).view.emb (ix2 p q) = ix2 r q := by
    funext a; refine Fin.ext ?_
    match a with
    | ⟨0, _⟩ => show win3_3.index t (0 : Fin 2) * 5000 + 1 * p.val = t.val * 5000 + p.val; omega
    | ⟨1, _⟩ => show win3_3.index t (1 : Fin 2) * 128 + 1 * q.val = q.val; omega
  show k3_pay1 (F := Ideal) (iblk3 V c 0 t) (iblk3 V c 2 t) (iblk3 V c 1 t) (ix2 p q)
    = scaledBias (V c main_v51) (V c main_v52) (V c main_v15) (((cfg3.win 3).blk t).view.emb (ix2 p q))
  rw [hemb]
  refine (Cert.KernelBodies.pay3_apply _ _ _ p q).trans ?_
  refine Eq.trans ?_ (scaledBias_apply _ _ _ r q).symm
  rw [blk3_0 V c t p q r rfl, blk3_1 V c t q, blk3_2 V c t p r rfl]

/-- An index is in point `t`'s block iff each coordinate is in the block's range. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v53).slice (win3_3.rect t)).set ↔ _
  rw [View.set_slice_whole, Rect.mem_set_unit]
  exact Iff.rfl

/-- Every block of rows is some point's. -/
theorem onto3 : ∀ q : Fin 20, ∃ t : Fin cfg3.N, win3_3.index t = ![q.val, 0] :=
  (by decide +kernel : ∀ q : Fin 20, ∃ t : Fin grid3.N, win3_3.index t = ![q.val, 0])

/-- The 20 blocks cover the result array. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array after region 3. -/
theorem final3 (c : Dev nD) :
    (dat3 V c).arrAt 3 cfg3.N = scaledBias (V c main_v51) (V c main_v52) (V c main_v15) :=
  (dat3 V c).arrAt_eq_of_cover 3 _ (fun t _ => flushed3 V c t) cover3

end Cert.KernelRegions

end
-- ==== Proof.KernelChain.lean ====
/-
  The idealized kernel program's returned buffer as one closed term of its ten argument arrays.

  The program's run is a fold of the device's buffer contents through five stretches of host operations and four
  regions, in the order  host, host, host, region, host, region, host, region, host, region, host.  A host
  stretch rewrites the buffers of its own results, each to its operation's value at the operands' contents, and
  leaves every other buffer; a region rewrites its result array to a function of the three arrays it finds (a
  row-scaled matrix product, or a row scaling plus a bias row with or without the maximum with zero) and leaves
  every other buffer. Walking the fold from the launch, each buffer that a later step still reads is therefore a
  closed term of the argument arrays as launched: at every boundary the lemmas below say which term, for exactly
  the buffers still needed after it, and the last one reads the returned buffer as `result` of the ten arguments.

  The host stretches are first read over ANY contents found at their start (`h…` for a result buffer, `keep…` for
  a buffer the stretch does not write), so that no step of the fold is unfolded twice; the boundary lemmas compose
  them with the regions' results by rewriting with equations between whole arrays.
-/
import proofs.«148197_j81801947120042_2_alg».proof.Proof.Gen.KernelIdeal.Frame
import proofs.«148197_j81801947120042_2_alg».proof.Proof.KernelStages
import proofs.«148197_j81801947120042_2_alg».proof.Proof.Region0
import proofs.«148197_j81801947120042_2_alg».proof.Proof.Region1
import proofs.«148197_j81801947120042_2_alg».proof.Proof.Region2
import proofs.«148197_j81801947120042_2_alg».proof.Proof.Region3
import Idealize.ShloMosaic.Lib.StableHlo.Run

set_option maxRecDepth 16384

noncomputable section

namespace Cert.KernelChain

open Idealize.ShloMosaic Idealize.ShloMosaic.TcCoe Idealize.SL.Sem
open Cert.KernelIdeal Cert.KernelIdeal.Gen Cert.KernelRegions Cert.KernelStages

/-- Contents, at the extended reals, of a buffer of the given shape and element type. -/
local notation "𝔸[" S ", " e "]" => BufTy.Contents (Elt Ideal) (BufTy.mk S e)

/-! ## The host stretches, read over any contents `V` found at their start -/

section Host

variable (V : Valuation τ sig (Elt Ideal))

/-- A buffer in a list is among the device buffers of that list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Closes `ops.Forall fun op => op.writes ⊆ …` for a literal stretch and a literal list holding its result buffers. -/
macro "writes_listed" ops:ident : tactic =>
  `(tactic| (
    simp only [$ops:ident, List.Forall, StableHlo.nullary_writes, StableHlo.unary_writes, StableHlo.binary_writes,
      StableHlo.ternary_writes, StableHlo.quaternary_writes, StableHlo.reshape_writes, StableHlo.binaryIndexed_writes]
    repeat' apply And.intro
    all_goals exact writes_sub_of_mem (by decide)))

/-- The buffers the first stretch writes. -/
abbrev wr0 : List (Ref sig .tc) :=
  [main_v0, main_v1, main_v2, main_v3, main_v4, main_v5, main_v6, main_cst, main_v7, main_cst_0, main_v8, main_v9,
   main_v10, main_cst_1, main_v11, main_v12, main_v13, main_cst_2]
theorem hW0 : (hostOps0 (F := Ideal)).Forall fun op => op.writes ⊆ (wr0.map (Proc.devRef (τ := τ) .tc)).toFinset := by
  writes_listed hostOps0
/-- A buffer the first stretch does not write keeps its contents. -/
theorem keep0 {r : Ref sig .tc} (hr : r ∉ wr0) :
    StableHlo.after (hostOps0 (F := Ideal)) V (Proc.devRef .tc r) = V (Proc.devRef .tc r) :=
  StableHlo.after_of_writes_sub _ V hW0 hr

theorem h0_v3 : StableHlo.after (hostOps0 (F := Ideal)) V (Proc.devRef .tc main_v3)
    = srcArr (V (Proc.devRef .tc main_arg1)) := by
  after_results; rfl
theorem h0_v6 : StableHlo.after (hostOps0 (F := Ideal)) V (Proc.devRef .tc main_v6)
    = dstArr (V (Proc.devRef .tc main_arg1)) := by
  after_results; rfl
theorem h0_v12 : StableHlo.after (hostOps0 (F := Ideal)) V (Proc.devRef .tc main_v12)
    = degPos (V (Proc.devRef .tc main_arg1)) := by
  after_results; rfl
theorem h0_v13 : StableHlo.after (hostOps0 (F := Ideal)) V (Proc.devRef .tc main_v13)
    = degRsqrt (V (Proc.devRef .tc main_arg1)) := by
  after_results; rfl
theorem h0_cst2 : StableHlo.after (hostOps0 (F := Ideal)) V (Proc.devRef .tc main_cst_2) = zeroScalar := by
  after_results; rfl

/-- The buffers the outlined selection writes. -/
abbrev wr0_1 : List (Ref sig .tc) := [main_call0_v0, main_call0_v1, main_v14]
theorem hW0_1 : (hostOps0_1 (F := Ideal)).Forall fun op => op.writes ⊆ (wr0_1.map (Proc.devRef (τ := τ) .tc)).toFinset := by
  writes_listed hostOps0_1
theorem keep0_1 {r : Ref sig .tc} (hr : r ∉ wr0_1) :
    StableHlo.after (hostOps0_1 (F := Ideal)) V (Proc.devRef .tc r) = V (Proc.devRef .tc r) :=
  StableHlo.after_of_writes_sub _ V hW0_1 hr

theorem h0_1_v14 : StableHlo.after (hostOps0_1 (F := Ideal)) V (Proc.devRef .tc main_v14)
    = select (V (Proc.devRef .tc main_v12) : 𝔸[S100000, .i1]) (V (Proc.devRef .tc main_v13) : 𝔸[S100000, .f32])
        (broadcastInDim S100000 ![] bcast_S_S100000 (V (Proc.devRef .tc main_cst_2) : 𝔸[S_, .f32])) := by
  after_results; rfl

/-- The buffers the third stretch writes. -/
abbrev wr0_2 : List (Ref sig .tc) := [main_v15, main_v16, main_v17]
theorem hW0_2 : (hostOps0_2 (F := Ideal)).Forall fun op => op.writes ⊆ (wr0_2.map (Proc.devRef (τ := τ) .tc)).toFinset := by
  writes_listed hostOps0_2
theorem keep0_2 {r : Ref sig .tc} (hr : r ∉ wr0_2) :
    StableHlo.after (hostOps0_2 (F := Ideal)) V (Proc.devRef .tc r) = V (Proc.devRef .tc r) :=
  StableHlo.after_of_writes_sub _ V hW0_2 hr

theorem h0_2_v15 : StableHlo.after (hostOps0_2 (F := Ideal)) V (Proc.devRef .tc main_v15)
    = shapeCast S100000x1 (V (Proc.devRef .tc main_v14) : 𝔸[S100000, .f32]) shapeCasts_S100000_S100000x1 := by
  after_results; rfl
theorem h0_2_v16 : StableHlo.after (hostOps0_2 (F := Ideal)) V (Proc.devRef .tc main_v16)
    = W1cat (V (Proc.devRef .tc main_arg2)) (V (Proc.devRef .tc main_arg6)) := by
  after_results; rfl
theorem h0_2_v17 : StableHlo.after (hostOps0_2 (F := Ideal)) V (Proc.devRef .tc main_v17)
    = b1cat (V (Proc.devRef .tc main_arg3)) (V (Proc.devRef .tc main_arg7)) := by
  after_results; rfl

end Host

section Host2

variable (V : Valuation τ sig (Elt Ideal))

/-- The buffers the stretch before the second region writes. -/
abbrev wr1 : List (Ref sig .tc) :=
  [main_c, main_v19, main_v20, main_c_3, main_v21, main_v22, main_v23, main_v24, main_v25, main_cst_4, main_v26,
   main_v27, main_v28, main_v29]
theorem hW1 : (hostOps1 (F := Ideal)).Forall fun op => op.writes ⊆ (wr1.map (Proc.devRef (τ := τ) .tc)).toFinset := by
  writes_listed hostOps1
theorem keep1 {r : Ref sig .tc} (hr : r ∉ wr1) :
    StableHlo.after (hostOps1 (F := Ideal)) V (Proc.devRef .tc r) = V (Proc.devRef .tc r) :=
  StableHlo.after_of_writes_sub _ V hW1 hr

set_option maxHeartbeats 2000000 in
theorem h1_v28 : StableHlo.after (hostOps1 (F := Ideal)) V (Proc.devRef .tc main_v28)
    = aggOf (V (Proc.devRef .tc main_v18)) (V (Proc.devRef .tc main_v3)) (V (Proc.devRef .tc main_v6)) := by
  after_results; rfl
theorem h1_v29 : StableHlo.after (hostOps1 (F := Ideal)) V (Proc.devRef .tc main_v29)
    = biasRow (V (Proc.devRef .tc main_v17)) := by
  after_results; rfl

/-- The buffers the stretch before the third region writes. -/
abbrev wr2 : List (Ref sig .tc) :=
  [main_cst_5, main_v31, main_c_6, main_v32, main_c_7, main_v33, main_v34, main_v35, main_c_8, main_v36, main_c_9,
   main_v37, main_v38, main_v39, main_v40]
theorem hW2 : (hostOps2 (F := Ideal)).Forall fun op => op.writes ⊆ (wr2.map (Proc.devRef (τ := τ) .tc)).toFinset := by
  writes_listed hostOps2
theorem keep2 {r : Ref sig .tc} (hr : r ∉ wr2) :
    StableHlo.after (hostOps2 (F := Ideal)) V (Proc.devRef .tc r) = V (Proc.devRef .tc r) :=
  StableHlo.after_of_writes_sub _ V hW2 hr

theorem h2_v39 : StableHlo.after (hostOps2 (F := Ideal)) V (Proc.devRef .tc main_v39)
    = W2bd (V (Proc.devRef .tc main_arg4)) (V (Proc.devRef .tc main_arg8)) := by
  after_results; rfl
theorem h2_v40 : StableHlo.after (hostOps2 (F := Ideal)) V (Proc.devRef .tc main_v40)
    = b2cat (V (Proc.devRef .tc main_arg5)) (V (Proc.devRef .tc main_arg9)) := by
  after_results; rfl

/-- The buffers the stretch before the fourth region writes. -/
abbrev wr3 : List (Ref sig .tc) :=
  [main_c_10, main_v42, main_v43, main_c_11, main_v44, main_v45, main_v46, main_v47, main_v48, main_cst_12, main_v49,
   main_v50, main_v51, main_v52]
theorem hW3 : (hostOps3 (F := Ideal)).Forall fun op => op.writes ⊆ (wr3.map (Proc.devRef (τ := τ) .tc)).toFinset := by
  writes_listed hostOps3
theorem keep3 {r : Ref sig .tc} (hr : r ∉ wr3) :
    StableHlo.after (hostOps3 (F := Ideal)) V (Proc.devRef .tc r) = V (Proc.devRef .tc r) :=
  StableHlo.after_of_writes_sub _ V hW3 hr

set_option maxHeartbeats 2000000 in
theorem h3_v51 : StableHlo.after (hostOps3 (F := Ideal)) V (Proc.devRef .tc main_v51)
    = aggOf (V (Proc.devRef .tc main_v41)) (V (Proc.devRef .tc main_v3)) (V (Proc.devRef .tc main_v6)) := by
  after_results; rfl
theorem h3_v52 : StableHlo.after (hostOps3 (F := Ideal)) V (Proc.devRef .tc main_v52)
    = biasRow (V (Proc.devRef .tc main_v40)) := by
  after_results; rfl

theorem h4_v58 : StableHlo.after (hostOps4 (F := Ideal)) V (Proc.devRef .tc main_v58)
    = split (V (Proc.devRef .tc main_v53)) := by
  after_results; rfl

end Host2

/-! ## The run: the buffers still needed, boundary by boundary -/

section Run

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)

/-! ### After the first stretch -/

theorem W1_v3 : W1 m ρ c (Proc.devRef .tc main_v3) = srcArr a1 := h0_v3 (W0 m ρ c)
theorem W1_v6 : W1 m ρ c (Proc.devRef .tc main_v6) = dstArr a1 := h0_v6 (W0 m ρ c)
theorem W1_v12 : W1 m ρ c (Proc.devRef .tc main_v12) = degPos a1 := h0_v12 (W0 m ρ c)
theorem W1_v13 : W1 m ρ c (Proc.devRef .tc main_v13) = degRsqrt a1 := h0_v13 (W0 m ρ c)
theorem W1_cst2 : W1 m ρ c (Proc.devRef .tc main_cst_2) = zeroScalar := h0_cst2 (W0 m ρ c)

/-! ### After the outlined selection -/

theorem W2_v14 : W2 m ρ c (Proc.devRef .tc main_v14) = dinvArr a1 :=
  (h0_1_v14 (W1 m ρ c)).trans (by rw [W1_v12 m ρ c, W1_v13 m ρ c, W1_cst2 m ρ c]; rfl)

/-! ### At the first region's entry -/

/-- An argument array is as launched at the first region's entry. -/
theorem W3_arg {r : Ref sig .tc} (h0 : r ∉ wr0) (h1 : r ∉ wr0_1) (h2 : r ∉ wr0_2) :
    W3 m ρ c (Proc.devRef .tc r) = W0 m ρ c (Proc.devRef .tc r) :=
  (keep0_2 _ h2).trans ((keep0_1 _ h1).trans (keep0 _ h0))

theorem W3_arg0 : W3 m ρ c (Proc.devRef .tc main_arg0) = a0 := W3_arg m ρ c (by decide) (by decide) (by decide)
theorem W3_arg4 : W3 m ρ c (Proc.devRef .tc main_arg4) = a4 := W3_arg m ρ c (by decide) (by decide) (by decide)
theorem W3_arg5 : W3 m ρ c (Proc.devRef .tc main_arg5) = a5 := W3_arg m ρ c (by decide) (by decide) (by decide)
theorem W3_arg8 : W3 m ρ c (Proc.devRef .tc main_arg8) = a8 := W3_arg m ρ c (by decide) (by decide) (by decide)
theorem W3_arg9 : W3 m ρ c (Proc.devRef .tc main_arg9) = a9 := W3_arg m ρ c (by decide) (by decide) (by decide)
theorem W3_v3 : W3 m ρ c (Proc.devRef .tc main_v3) = srcArr a1 :=
  (keep0_2 _ (by decide)).trans ((keep0_1 _ (by decide)).trans (W1_v3 m ρ c))
theorem W3_v6 : W3 m ρ c (Proc.devRef .tc main_v6) = dstArr a1 :=
  (keep0_2 _ (by decide)).trans ((keep0_1 _ (by decide)).trans (W1_v6 m ρ c))
theorem W3_v15 : W3 m ρ c (Proc.devRef .tc main_v15) = dcol a1 :=
  (h0_2_v15 (W2 m ρ c)).trans (by rw [W2_v14 m ρ c]; rfl)
/-- A buffer the first two stretches do not write is as launched after them. -/
theorem W2_arg {r : Ref sig .tc} (h0 : r ∉ wr0) (h1 : r ∉ wr0_1) :
    W2 m ρ c (Proc.devRef .tc r) = W0 m ρ c (Proc.devRef .tc r) :=
  (keep0_1 _ h1).trans (keep0 _ h0)
theorem W3_v16 : W3 m ρ c (Proc.devRef .tc main_v16) = W1cat a2 a6 :=
  (h0_2_v16 (W2 m ρ c)).trans (by
    rw [W2_arg m ρ c (r := main_arg2) (by decide) (by decide), W2_arg m ρ c (r := main_arg6) (by decide) (by decide)])
theorem W3_v17 : W3 m ρ c (Proc.devRef .tc main_v17) = b1cat a3 a7 :=
  (h0_2_v17 (W2 m ρ c)).trans (by
    rw [W2_arg m ρ c (r := main_arg3) (by decide) (by decide), W2_arg m ρ c (r := main_arg7) (by decide) (by decide)])

/-! ### At the first region's exit -/

theorem W4_arg4 : W4 m ρ c (Proc.devRef .tc main_arg4) = a4 := (W4_of_ne m ρ c main_arg4 (by decide)).trans (W3_arg4 m ρ c)
theorem W4_arg5 : W4 m ρ c (Proc.devRef .tc main_arg5) = a5 := (W4_of_ne m ρ c main_arg5 (by decide)).trans (W3_arg5 m ρ c)
theorem W4_arg8 : W4 m ρ c (Proc.devRef .tc main_arg8) = a8 := (W4_of_ne m ρ c main_arg8 (by decide)).trans (W3_arg8 m ρ c)
theorem W4_arg9 : W4 m ρ c (Proc.devRef .tc main_arg9) = a9 := (W4_of_ne m ρ c main_arg9 (by decide)).trans (W3_arg9 m ρ c)
theorem W4_v3 : W4 m ρ c (Proc.devRef .tc main_v3) = srcArr a1 := (W4_of_ne m ρ c main_v3 (by decide)).trans (W3_v3 m ρ c)
theorem W4_v6 : W4 m ρ c (Proc.devRef .tc main_v6) = dstArr a1 := (W4_of_ne m ρ c main_v6 (by decide)).trans (W3_v6 m ρ c)
theorem W4_v17 : W4 m ρ c (Proc.devRef .tc main_v17) = b1cat a3 a7 := (W4_of_ne m ρ c main_v17 (by decide)).trans (W3_v17 m ρ c)
/-- The node weights are an input of the region: it leaves them as it found them. -/
theorem W4_v15 : W4 m ρ c (Proc.devRef .tc main_v15) = dcol a1 :=
  ((W4_arr m ρ c 2).trans (((dat0 (V3 m ρ) c).arrAt_in 2 rfl _).trans (A_eq0 (V3 m ρ) c 2))).trans (W3_v15 m ρ c)
theorem W4_v18 : W4 m ρ c (Proc.devRef .tc main_v18) = F0 a0 a1 a2 a6 :=
  ((W4_arr m ρ c 3).trans (final0 (V3 m ρ) c)).trans (by
    show scaledProduct (W3 m ρ c (Proc.devRef .tc main_arg0)) (W3 m ρ c (Proc.devRef .tc main_v16))
      (W3 m ρ c (Proc.devRef .tc main_v15)) = _
    rw [W3_arg0 m ρ c, W3_v16 m ρ c, W3_v15 m ρ c]; rfl)

/-! ### At the second region's entry -/

theorem W5_arg4 : W5 m ρ c (Proc.devRef .tc main_arg4) = a4 := (keep1 _ (by decide)).trans (W4_arg4 m ρ c)
theorem W5_arg5 : W5 m ρ c (Proc.devRef .tc main_arg5) = a5 := (keep1 _ (by decide)).trans (W4_arg5 m ρ c)
theorem W5_arg8 : W5 m ρ c (Proc.devRef .tc main_arg8) = a8 := (keep1 _ (by decide)).trans (W4_arg8 m ρ c)
theorem W5_arg9 : W5 m ρ c (Proc.devRef .tc main_arg9) = a9 := (keep1 _ (by decide)).trans (W4_arg9 m ρ c)
theorem W5_v3 : W5 m ρ c (Proc.devRef .tc main_v3) = srcArr a1 := (keep1 _ (by decide)).trans (W4_v3 m ρ c)
theorem W5_v6 : W5 m ρ c (Proc.devRef .tc main_v6) = dstArr a1 := (keep1 _ (by decide)).trans (W4_v6 m ρ c)
theorem W5_v15 : W5 m ρ c (Proc.devRef .tc main_v15) = dcol a1 := (keep1 _ (by decide)).trans (W4_v15 m ρ c)
theorem W5_v28 : W5 m ρ c (Proc.devRef .tc main_v28) = agg (F0 a0 a1 a2 a6) a1 :=
  (h1_v28 (W4 m ρ c)).trans (by rw [W4_v18 m ρ c, W4_v3 m ρ c, W4_v6 m ρ c]; rfl)
theorem W5_v29 : W5 m ρ c (Proc.devRef .tc main_v29) = biasRow (b1cat a3 a7) :=
  (h1_v29 (W4 m ρ c)).trans (by rw [W4_v17 m ρ c])

/-! ### At the second region's exit -/

theorem W6_arg4 : W6 m ρ c (Proc.devRef .tc main_arg4) = a4 := (W6_of_ne m ρ c main_arg4 (by decide)).trans (W5_arg4 m ρ c)
theorem W6_arg5 : W6 m ρ c (Proc.devRef .tc main_arg5) = a5 := (W6_of_ne m ρ c main_arg5 (by decide)).trans (W5_arg5 m ρ c)
theorem W6_arg8 : W6 m ρ c (Proc.devRef .tc main_arg8) = a8 := (W6_of_ne m ρ c main_arg8 (by decide)).trans (W5_arg8 m ρ c)
theorem W6_arg9 : W6 m ρ c (Proc.devRef .tc main_arg9) = a9 := (W6_of_ne m ρ c main_arg9 (by decide)).trans (W5_arg9 m ρ c)
theorem W6_v3 : W6 m ρ c (Proc.devRef .tc main_v3) = srcArr a1 := (W6_of_ne m ρ c main_v3 (by decide)).trans (W5_v3 m ρ c)
theorem W6_v6 : W6 m ρ c (Proc.devRef .tc main_v6) = dstArr a1 := (W6_of_ne m ρ c main_v6 (by decide)).trans (W5_v6 m ρ c)
theorem W6_v15 : W6 m ρ c (Proc.devRef .tc main_v15) = dcol a1 :=
  ((W6_arr m ρ c 2).trans (((dat1 (V5 m ρ) c).arrAt_in 2 rfl _).trans (A_eq1 (V5 m ρ) c 2))).trans (W5_v15 m ρ c)
theorem W6_v30 : W6 m ρ c (Proc.devRef .tc main_v30) = F1 a0 a1 a2 a3 a6 a7 :=
  ((W6_arr m ρ c 3).trans (final1 (V5 m ρ) c)).trans (by
    show scaledBiasPos (W5 m ρ c (Proc.devRef .tc main_v28)) (W5 m ρ c (Proc.devRef .tc main_v29))
      (W5 m ρ c (Proc.devRef .tc main_v15)) = _
    rw [W5_v28 m ρ c, W5_v29 m ρ c, W5_v15 m ρ c]; rfl)

/-! ### At the third region's entry -/

theorem W7_v3 : W7 m ρ c (Proc.devRef .tc main_v3) = srcArr a1 := (keep2 _ (by decide)).trans (W6_v3 m ρ c)
theorem W7_v6 : W7 m ρ c (Proc.devRef .tc main_v6) = dstArr a1 := (keep2 _ (by decide)).trans (W6_v6 m ρ c)
theorem W7_v15 : W7 m ρ c (Proc.devRef .tc main_v15) = dcol a1 := (keep2 _ (by decide)).trans (W6_v15 m ρ c)
theorem W7_v30 : W7 m ρ c (Proc.devRef .tc main_v30) = F1 a0 a1 a2 a3 a6 a7 := (keep2 _ (by decide)).trans (W6_v30 m ρ c)
theorem W7_v39 : W7 m ρ c (Proc.devRef .tc main_v39) = W2bd a4 a8 :=
  (h2_v39 (W6 m ρ c)).trans (by rw [W6_arg4 m ρ c, W6_arg8 m ρ c])
theorem W7_v40 : W7 m ρ c (Proc.devRef .tc main_v40) = b2cat a5 a9 :=
  (h2_v40 (W6 m ρ c)).trans (by rw [W6_arg5 m ρ c, W6_arg9 m ρ c])

/-! ### At the third region's exit -/

theorem W8_v3 : W8 m ρ c (Proc.devRef .tc main_v3) = srcArr a1 := (W8_of_ne m ρ c main_v3 (by decide)).trans (W7_v3 m ρ c)
theorem W8_v6 : W8 m ρ c (Proc.devRef .tc main_v6) = dstArr a1 := (W8_of_ne m ρ c main_v6 (by decide)).trans (W7_v6 m ρ c)
theorem W8_v40 : W8 m ρ c (Proc.devRef .tc main_v40) = b2cat a5 a9 := (W8_of_ne m ρ c main_v40 (by decide)).trans (W7_v40 m ρ c)
theorem W8_v15 : W8 m ρ c (Proc.devRef .tc main_v15) = dcol a1 :=
  ((W8_arr m ρ c 2).trans (((dat2 (V7 m ρ) c).arrAt_in 2 rfl _).trans (A_eq2 (V7 m ρ) c 2))).trans (W7_v15 m ρ c)
theorem W8_v41 : W8 m ρ c (Proc.devRef .tc main_v41) = F2 a0 a1 a2 a3 a4 a6 a7 a8 :=
  ((W8_arr m ρ c 3).trans (final2 (V7 m ρ) c)).trans (by
    show scaledProduct (W7 m ρ c (Proc.devRef .tc main_v30)) (W7 m ρ c (Proc.devRef .tc main_v39))
      (W7 m ρ c (Proc.devRef .tc main_v15)) = _
    rw [W7_v30 m ρ c, W7_v39 m ρ c, W7_v15 m ρ c]; rfl)

/-! ### At the fourth region's entry -/

theorem W9_v15 : W9 m ρ c (Proc.devRef .tc main_v15) = dcol a1 := (keep3 _ (by decide)).trans (W8_v15 m ρ c)
theorem W9_v51 : W9 m ρ c (Proc.devRef .tc main_v51) = agg (F2 a0 a1 a2 a3 a4 a6 a7 a8) a1 :=
  (h3_v51 (W8 m ρ c)).trans (by rw [W8_v41 m ρ c, W8_v3 m ρ c, W8_v6 m ρ c]; rfl)
theorem W9_v52 : W9 m ρ c (Proc.devRef .tc main_v52) = biasRow (b2cat a5 a9) :=
  (h3_v52 (W8 m ρ c)).trans (by rw [W8_v40 m ρ c])

/-! ### At the fourth region's exit -/

theorem W10_v53 : W10 m ρ c (Proc.devRef .tc main_v53) = F3 a0 a1 a2 a3 a4 a5 a6 a7 a8 a9 :=
  ((W10_arr m ρ c 3).trans (final3 (V9 m ρ) c)).trans (by
    show scaledBias (W9 m ρ c (Proc.devRef .tc main_v51)) (W9 m ρ c (Proc.devRef .tc main_v52))
      (W9 m ρ c (Proc.devRef .tc main_v15)) = _
    rw [W9_v51 m ρ c, W9_v52 m ρ c, W9_v15 m ρ c]; rfl)

/-! ### The boundaries, each as one statement of the buffers still needed after it -/

/-- At the first region's entry. -/
theorem at_W3 :
    W3 m ρ c (Proc.devRef .tc main_arg0) = a0 ∧ W3 m ρ c (Proc.devRef .tc main_arg4) = a4
    ∧ W3 m ρ c (Proc.devRef .tc main_arg5) = a5 ∧ W3 m ρ c (Proc.devRef .tc main_arg8) = a8
    ∧ W3 m ρ c (Proc.devRef .tc main_arg9) = a9 ∧ W3 m ρ c (Proc.devRef .tc main_v3) = srcArr a1
    ∧ W3 m ρ c (Proc.devRef .tc main_v6) = dstArr a1 ∧ W3 m ρ c (Proc.devRef .tc main_v15) = dcol a1
    ∧ W3 m ρ c (Proc.devRef .tc main_v16) = W1cat a2 a6 ∧ W3 m ρ c (Proc.devRef .tc main_v17) = b1cat a3 a7 :=
  ⟨W3_arg0 m ρ c, W3_arg4 m ρ c, W3_arg5 m ρ c, W3_arg8 m ρ c, W3_arg9 m ρ c, W3_v3 m ρ c, W3_v6 m ρ c, W3_v15 m ρ c,
    W3_v16 m ρ c, W3_v17 m ρ c⟩

/-- At the first region's exit. -/
theorem at_W4 :
    W4 m ρ c (Proc.devRef .tc main_arg4) = a4 ∧ W4 m ρ c (Proc.devRef .tc main_arg5) = a5
    ∧ W4 m ρ c (Proc.devRef .tc main_arg8) = a8 ∧ W4 m ρ c (Proc.devRef .tc main_arg9) = a9
    ∧ W4 m ρ c (Proc.devRef .tc main_v3) = srcArr a1 ∧ W4 m ρ c (Proc.devRef .tc main_v6) = dstArr a1
    ∧ W4 m ρ c (Proc.devRef .tc main_v15) = dcol a1 ∧ W4 m ρ c (Proc.devRef .tc main_v17) = b1cat a3 a7
    ∧ W4 m ρ c (Proc.devRef .tc main_v18) = F0 a0 a1 a2 a6 :=
  ⟨W4_arg4 m ρ c, W4_arg5 m ρ c, W4_arg8 m ρ c, W4_arg9 m ρ c, W4_v3 m ρ c, W4_v6 m ρ c, W4_v15 m ρ c, W4_v17 m ρ c,
    W4_v18 m ρ c⟩

/-- At the second region's entry. -/
theorem at_W5 :
    W5 m ρ c (Proc.devRef .tc main_arg4) = a4 ∧ W5 m ρ c (Proc.devRef .tc main_arg5) = a5
    ∧ W5 m ρ c (Proc.devRef .tc main_arg8) = a8 ∧ W5 m ρ c (Proc.devRef .tc main_arg9) = a9
    ∧ W5 m ρ c (Proc.devRef .tc main_v3) = srcArr a1 ∧ W5 m ρ c (Proc.devRef .tc main_v6) = dstArr a1
    ∧ W5 m ρ c (Proc.devRef .tc main_v15) = dcol a1
    ∧ W5 m ρ c (Proc.devRef .tc main_v28) = agg (F0 a0 a1 a2 a6) a1
    ∧ W5 m ρ c (Proc.devRef .tc main_v29) = biasRow (b1cat a3 a7) :=
  ⟨W5_arg4 m ρ c, W5_arg5 m ρ c, W5_arg8 m ρ c, W5_arg9 m ρ c, W5_v3 m ρ c, W5_v6 m ρ c, W5_v15 m ρ c, W5_v28 m ρ c,
    W5_v29 m ρ c⟩

/-- At the second region's exit. -/
theorem at_W6 :
    W6 m ρ c (Proc.devRef .tc main_arg4) = a4 ∧ W6 m ρ c (Proc.devRef .tc main_arg5) = a5
    ∧ W6 m ρ c (Proc.devRef .tc main_arg8) = a8 ∧ W6 m ρ c (Proc.devRef .tc main_arg9) = a9
    ∧ W6 m ρ c (Proc.devRef .tc main_v3) = srcArr a1 ∧ W6 m ρ c (Proc.devRef .tc main_v6) = dstArr a1
    ∧ W6 m ρ c (Proc.devRef .tc main_v15) = dcol a1 ∧ W6 m ρ c (Proc.devRef .tc main_v30) = F1 a0 a1 a2 a3 a6 a7 :=
  ⟨W6_arg4 m ρ c, W6_arg5 m ρ c, W6_arg8 m ρ c, W6_arg9 m ρ c, W6_v3 m ρ c, W6_v6 m ρ c, W6_v15 m ρ c, W6_v30 m ρ c⟩

/-- At the third region's entry. -/
theorem at_W7 :
    W7 m ρ c (Proc.devRef .tc main_v3) = srcArr a1 ∧ W7 m ρ c (Proc.devRef .tc main_v6) = dstArr a1
    ∧ W7 m ρ c (Proc.devRef .tc main_v15) = dcol a1 ∧ W7 m ρ c (Proc.devRef .tc main_v30) = F1 a0 a1 a2 a3 a6 a7
    ∧ W7 m ρ c (Proc.devRef .tc main_v39) = W2bd a4 a8 ∧ W7 m ρ c (Proc.devRef .tc main_v40) = b2cat a5 a9 :=
  ⟨W7_v3 m ρ c, W7_v6 m ρ c, W7_v15 m ρ c, W7_v30 m ρ c, W7_v39 m ρ c, W7_v40 m ρ c⟩

/-- At the third region's exit. -/
theorem at_W8 :
    W8 m ρ c (Proc.devRef .tc main_v3) = srcArr a1 ∧ W8 m ρ c (Proc.devRef .tc main_v6) = dstArr a1
    ∧ W8 m ρ c (Proc.devRef .tc main_v15) = dcol a1 ∧ W8 m ρ c (Proc.devRef .tc main_v40) = b2cat a5 a9
    ∧ W8 m ρ c (Proc.devRef .tc main_v41) = F2 a0 a1 a2 a3 a4 a6 a7 a8 :=
  ⟨W8_v3 m ρ c, W8_v6 m ρ c, W8_v15 m ρ c, W8_v40 m ρ c, W8_v41 m ρ c⟩

/-- At the fourth region's entry. -/
theorem at_W9 :
    W9 m ρ c (Proc.devRef .tc main_v15) = dcol a1
    ∧ W9 m ρ c (Proc.devRef .tc main_v51) = agg (F2 a0 a1 a2 a3 a4 a6 a7 a8) a1
    ∧ W9 m ρ c (Proc.devRef .tc main_v52) = biasRow (b2cat a5 a9) :=
  ⟨W9_v15 m ρ c, W9_v51 m ρ c, W9_v52 m ρ c⟩

/-! ### At the return -/

/-- The returned buffer holds `result` of the ten argument arrays as launched. -/
theorem result_eq : W11 m ρ c (Proc.devRef .tc main_v58) = result a0 a1 a2 a3 a4 a5 a6 a7 a8 a9 :=
  (h4_v58 (W10 m ρ c)).trans (by rw [W10_v53 m ρ c]; rfl)

end Run

end Cert.KernelChain

end
-- ==== Proof.GcnSpec.lean ====
/-
  The function both programs compute, written once.

  The graph has 100000 nodes and 1700000 directed edges (the given ones and one loop per node). Three columns of
  edge data come in: for each edge the number of its source node as the table reads use it (`srcn`), the number of
  its destination node as the accumulation uses it (`dst`: read signed; an edge whose number is not a node is dropped)
  and the destination as a table read uses it (`dstn`). A table read clamps the number into `0 … 99999` (`rowOf`).
  With `dinv` a weight per node, one convolution of node features `P` is, at node `n` and channel `c`,

      (∑ over the edges e into n of  P (source of e) c * (dinv (source of e) * dinv (destination of e)))  +  b c.

  A branch is two convolutions: the first of `x · W1` followed by the maximum with zero, the second of that times `W2`.
-/
import Idealize.ShloMosaic.Lib.ValueIdx
import Idealize.ShloMosaic.PureOps.Ideal.Laws

noncomputable section

namespace Cert.GcnSpec

open Idealize.ShloMosaic Idealize.ShloMosaic.ValueIdx

section
variable (srcn dst dstn : IVec ⟨2, ![1700000, 1]⟩ 32) (dinv : (⟨1, ![100000]⟩ : Shape).Idx → EReal)

/-- The table row an edge's node number selects: the number read signed and clamped into the table. -/
def rowOf (col : IVec ⟨2, ![1700000, 1]⟩ 32) (e : Fin 1700000) : Fin 100000 :=
  ⟨min (col (ix2 e (0 : Fin 1))).toInt.toNat (100000 - 1), by omega⟩

/-- The edges whose destination number, read signed, is node `n`. -/
def into (n : Fin 100000) : Finset (Fin 1700000) :=
  Finset.univ.filter (fun e : Fin 1700000 => (dst (ix2 e (0 : Fin 1))).toInt = (n.val : Int))

/-- One convolution of the node features `P` with bias `b`, at node `n` and channel `c`. -/
def conv (P : Fin 100000 → Fin 64 → EReal) (b : Fin 64 → EReal) (n : Fin 100000) (c : Fin 64) : EReal :=
  (∑ e ∈ into dst n, P (rowOf srcn e) c * (dinv (ix1 (rowOf srcn e)) * dinv (ix1 (rowOf dstn e)))) + b c

/-- The input features times the first weight matrix. -/
def feat1 (x : (⟨2, ![100000, 128]⟩ : Shape).Idx → EReal) (W : (⟨2, ![128, 64]⟩ : Shape).Idx → EReal)
    (r : Fin 100000) (c : Fin 64) : EReal :=
  ∑ k : Fin 128, x (ix2 r k) * W (ix2 k c)

/-- The hidden features: the first convolution followed by the maximum with zero. -/
def hidden (x : (⟨2, ![100000, 128]⟩ : Shape).Idx → EReal) (W1 : (⟨2, ![128, 64]⟩ : Shape).Idx → EReal)
    (b1 : (⟨1, ![64]⟩ : Shape).Idx → EReal) (n : Fin 100000) (c : Fin 64) : EReal :=
  max (conv srcn dst dstn dinv (feat1 x W1) (fun c => b1 (ix1 c)) n c) 0

/-- Hidden features times the second weight matrix. -/
def feat2 (h : Fin 100000 → Fin 64 → EReal) (W : (⟨2, ![64, 64]⟩ : Shape).Idx → EReal)
    (r : Fin 100000) (c : Fin 64) : EReal :=
  ∑ k : Fin 64, h r k * W (ix2 k c)

/-- One branch at node `n` and channel `c`. -/
def branch (x : (⟨2, ![100000, 128]⟩ : Shape).Idx → EReal) (W1 : (⟨2, ![128, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (n : Fin 100000) (c : Fin 64) : EReal :=
  conv srcn dst dstn dinv (feat2 (hidden srcn dst dstn dinv x W1 b1) W2) (fun c => b2 (ix1 c)) n c

/-- One branch as an array over nodes and channels. -/
def branchArr (x : (⟨2, ![100000, 128]⟩ : Shape).Idx → EReal) (W1 : (⟨2, ![128, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![100000, 64]⟩ : Shape).Idx → EReal :=
  fun i => branch srcn dst dstn dinv x W1 b1 W2 b2 (i 0) (i 1)

end

end Cert.GcnSpec

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.LibScatterAddRows.lean ====
/-
  Rows of updates added into a table at a column of row numbers, at the extended reals, read at an index.

  What `table.at[rows].add(updates)` lowers to for a table `[N, C]`, row numbers `[E]` held as an `[E, 1]` array and
  updates `[E, C]`: a scatter whose one window axis is the columns, the row axis inserted, the one start component the
  row. Update entry `(e, k)` lands at row `rows (e, 0)`, read as a signed integer and NOT clamped, column `k`; an update
  whose row number is negative or at least `N` is dropped. So entry `(n, c)` of the result is the table's entry plus the
  sum of `updates (e, c)` over the `e` whose row number is `n`.
-/
import Idealize.ShloMosaic.Lib.ValueIdx
import Idealize.ShloMosaic.PureOps.Ideal.Laws

noncomputable section

namespace Cert.LibScatterAddRows

open Idealize.ShloMosaic Idealize.ShloMosaic.ValueIdx

/-- The dimension numbers of that scatter; their conditions are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the row number of the update's row, read signed. -/
theorem start_row (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no start component names, the window starts at `0`. -/
theorem start_col (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => Nat.one_ne_zero (congrArg Fin.val (List.mem_singleton.mp h)))]

/-- The row axis is inserted: its window coordinate is `0`. -/
theorem window_row (j : (⟨2, ![E, C]⟩ : Shape).Idx) : (rowDims N E C wf).window j 0 = 0 := by
  unfold ScatterDims.window
  rw [dif_neg (show (0 : Fin 2) ∉ (rowDims N E C wf).sKept from fun h => by
    simp [ScatterDims.sKept, Shape.kept] at h)]

/-- The column axis is the window axis: its window coordinate is the update's column. -/
theorem window_col (j : (⟨2, ![E, C]⟩ : Shape).Idx) : (rowDims N E C wf).window j 1 = (j 1).val := by
  unfold ScatterDims.window
  rw [dif_pos (show (1 : Fin 2) ∈ (rowDims N E C wf).sKept from by
    simp [ScatterDims.sKept, Shape.kept])]
  rfl

/-- Where an update lands: update index `j` lands at `(n, c)` exactly when its row's number, read signed, is `n` and
    its column is `c`. A row number that is negative or at least `N` equals no `n`: the update is dropped. -/
theorem resultIdx?_eq_some_iff (idx : IVec ⟨2, ![E, 1]⟩ w) (j : (⟨2, ![E, C]⟩ : Shape).Idx) (n : Fin N) (c : Fin C) :
    (rowDims N E C wf).resultIdx? j idx = some (ix2 n c)
      ↔ (idx (ix2 (j 0) (0 : Fin 1))).toInt = (n.val : Int) ∧ j 1 = c := by
  have h0 := start_row wf j idx
  have h1 := start_col wf j idx
  have w0 := window_row wf j
  have w1 := window_col wf j
  have hj1 : (j 1).val < C := idx2_lt1 j
  have hn : n.val < N := n.isLt
  have hc : c.val < C := c.isLt
  unfold ScatterDims.resultIdx?
  by_cases hall : ∀ a, 0 ≤ (rowDims N E C wf).start j idx a + (rowDims N E C wf).window j a
      ∧ (rowDims N E C wf).start j idx a + (rowDims N E C wf).window j a < (⟨2, ![N, C]⟩ : Shape).size a
  · rw [dif_pos hall]
    constructor
    · intro h
      have h' := Option.some.inj h
      have a0 := (hall 0).1
      have e0 : ((rowDims N E C wf).start j idx 0 + (rowDims N E C wf).window j 0).toNat = n.val :=
        congrArg Fin.val (congrFun h' 0)
      have e1 : ((rowDims N E C wf).start j idx 1 + (rowDims N E C wf).window j 1).toNat = c.val :=
        congrArg Fin.val (congrFun h' 1)
      rw [h0, w0] at a0 e0
      rw [h1, w1] at e1
      exact ⟨by omega, Fin.ext (by omega)⟩
    · rintro ⟨hs, hk⟩
      refine congrArg some (funext fun a => Fin.ext ?_)
      match a with
      | ⟨0, _⟩ =>
        show ((rowDims N E C wf).start j idx 0 + (rowDims N E C wf).window j 0).toNat = n.val
        rw [h0, w0]; omega
      | ⟨1, _⟩ =>
        show ((rowDims N E C wf).start j idx 1 + (rowDims N E C wf).window j 1).toNat = c.val
        rw [h1, w1, hk]; omega
  · rw [dif_neg hall]
    constructor
    · intro h; cases h
    · rintro ⟨hs, hk⟩
      refine absurd (fun a => ?_) hall
      match a with
      | ⟨0, _⟩ =>
        show 0 ≤ (rowDims N E C wf).start j idx 0 + (rowDims N E C wf).window j 0
          ∧ (rowDims N E C wf).start j idx 0 + (rowDims N E C wf).window j 0 < (N : Int)
        rw [h0, w0]; omega
      | ⟨1, _⟩ =>
        show 0 ≤ (rowDims N E C wf).start j idx 1 + (rowDims N E C wf).window j 1
          ∧ (rowDims N E C wf).start j idx 1 + (rowDims N E C wf).window j 1 < (C : Int)
        rw [h1, w1]; omega

/-- The same at an update index given by its coordinates `(e, k)`. -/
theorem resultIdx?_ix2_eq_some_iff (idx : IVec ⟨2, ![E, 1]⟩ w) (e : Fin E) (k : Fin C) (n : Fin N) (c : Fin C) :
    (rowDims N E C wf).resultIdx? (ix2 e k) idx = some (ix2 n c)
      ↔ (idx (ix2 e (0 : Fin 1))).toInt = (n.val : Int) ∧ k = c :=
  resultIdx?_eq_some_iff wf idx (ix2 e k) n c

/-- THE ACCUMULATING SCATTER READ AT `(n, c)`: the table's entry plus the sum of column `c` of the update rows whose row
    number, read signed, is `n`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx?_eq_some_iff wf idx j n c).mp hj').1⟩
  · intro e he
    have he' := (Finset.mem_filter.mp he).2
    exact Finset.mem_filter.mpr ⟨Finset.mem_univ _, (resultIdx?_ix2_eq_some_iff wf idx e c n c).mpr ⟨he', rfl⟩⟩
  · intro j hj
    rw [Finset.mem_filter] at hj
    have hk := ((resultIdx?_eq_some_iff wf idx j n c).mp hj.2).2
    rw [← hk]
    exact (eq_ix2 j).symm
  · intro e _
    rfl
  · intro j hj
    rw [Finset.mem_filter] at hj
    have hk := ((resultIdx?_eq_some_iff wf idx j n c).mp hj.2).2
    rw [← hk]
    exact congrArg upd (eq_ix2 j)

/-- The same with the host's accumulating scatter at the ideal instance on the left. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N E C wf) x idx upd (ix2 n c)
      = x (ix2 n c) + ∑ e ∈ Finset.univ.filter (fun e : Fin E => (idx (ix2 e (0 : Fin 1))).toInt = (n.val : Int)),
          upd (ix2 e c) :=
  scatterAdd_rows_apply wf x idx upd n c

end Cert.LibScatterAddRows

end
-- ==== Proof.KernelReads.lean ====
/-
  The kernel program's gather-then-accumulate stage read at an index, at the extended reals.

  Between two regions the program reads, for every edge, the row of a 128-wide table `T` numbered by the edge's
  source (clamped into the table), and adds each such row into the row of a zero array numbered by the edge's
  destination (an edge whose destination is not a row is dropped). Entry `(n, q)` of the result is therefore the sum,
  over the edges into `n`, of `T (source row, q)`.
-/
import proofs.«148197_j81801947120042_2_alg».proof.KernelIdeal
import proofs.«148197_j81801947120042_2_alg».proof.Proof.GcnSpec
import proofs.«148197_j81801947120042_2_alg».proof.Proof.LibGatherRows
import proofs.«148197_j81801947120042_2_alg».proof.Proof.LibScatterAddRows
import Idealize.ShloMosaic.Lib.IdealHost

noncomputable section

namespace Cert.KernelReads

open Idealize.ShloMosaic Idealize.ShloMosaic.ValueIdx Cert.KernelIdeal Cert.GcnSpec

variable [Facts₀]
open Cert.KernelIdeal.Facts₀

/-- The accumulated gathered rows at entry `(n, q)`. -/
theorem agg_apply (T : FVec Ideal S100000x128 .f32) (srcn dst : IVec S1700000x1 32) (n : Fin 100000) (q : Fin 128) :
    Host.scatterAdd (F := Ideal) scatter_S100000x128_S1700000x1_S1700000x128_1_0_0_1
      (broadcastInDim S100000x128 ![] bcast_S_S100000x128 (constant (F := Ideal) S_ .f32 0x00000000#32)) dst
      (Host.gather gather_S100000x128_S1700000x1_S1700000x128_1_0_n_n_0_1_1128 T srcn) (ix2 n q)
    = ∑ e ∈ into dst n, T (ix2 (rowOf srcn e) q) := by
  refine (Cert.LibScatterAddRows.host_scatterAdd_rows_apply (N := 100000) (E := 1700000) (C := 128) _ _ dst _ n q).trans ?_
  rw [broadcastInDim_scalar_apply, constant_apply, Ideal.ofBits_zero_f32, zero_add]
  refine Finset.sum_congr rfl fun e _ => ?_
  exact Cert.LibGatherRows.gather_rows_apply (N := 100000) (R := 1700000) (C := 128) (by omega) _ T srcn e q

end Cert.KernelReads

end
-- ==== Proof.GcnAlgebra.lean ====
/-
  The algebra that joins the two programs, on the extended reals.

  The reference multiplies each edge's message by `dinv (source) * dinv (destination)` before summing the messages
  that arrive at a node; the kernel scales the features by `dinv (source)` before the edges are read, sums, and
  multiplies the sum by `dinv (node)` afterwards. The two agree because every edge summed at node `n` has
  destination `n`, multiplication of extended reals is associative, and a factor that is a non-negative REAL
  distributes over any finite sum of extended reals (for an infinite factor, or a negative one, it need not: `⊤ + ⊥`).
  Also here: a sum over 128 terms as the sum of its two halves of 64, which is how a 128-wide product against two
  weight matrices side by side, or against a block-diagonal one, splits into the two branches' 64-wide products.
-/
import proofs.«148197_j81801947120042_2_alg».proof.Proof.GcnSpec

noncomputable section

namespace Cert.GcnAlgebra

open Idealize.ShloMosaic Idealize.ShloMosaic.ValueIdx Cert.GcnSpec

/-- A non-negative finite factor distributes over a finite sum of extended reals. -/
theorem sum_mul_of_nonneg_of_ne_top {ι : Type} (s : Finset ι) (f : ι → EReal) {D : EReal} (h0 : 0 ≤ D) (ht : D ≠ ⊤) :
    (∑ e ∈ s, f e) * D = ∑ e ∈ s, f e * D := by
  classical
  induction s using Finset.induction_on with
  | empty => simp
  | insert a s ha ih =>
    rw [Finset.sum_insert ha, Finset.sum_insert ha, EReal.right_distrib_of_nonneg_of_ne_top h0 ht, ih]

section
variable (srcn dst dstn : IVec ⟨2, ![1700000, 1]⟩ 32) (dinv : (⟨1, ![100000]⟩ : Shape).Idx → EReal)

/-- The kernel's arrangement of one convolution, 128 channels wide: features scaled at the source before the edges
    are read, the sum over the edges into `n` (onto a zero), scaled at `n`, plus the bias. -/
def kconv (P : Fin 100000 → Fin 128 → EReal) (b : Fin 128 → EReal) (n : Fin 100000) (q : Fin 128) : EReal :=
  (∑ e ∈ into dst n, P (rowOf srcn e) q * dinv (ix1 (rowOf srcn e))) * dinv (ix1 n) + b q

/-- The kernel's arrangement is the specification's: every edge summed at `n` has destination row `n`, and
    `dinv n` is a non-negative real. -/
theorem kconv_eq (hfin : ∀ i, 0 ≤ dinv i ∧ dinv i ≠ ⊤)
    (hdst : ∀ (e : Fin 1700000) (n : Fin 100000), (dst (ix2 e (0 : Fin 1))).toInt = (n.val : Int) → rowOf dstn e = n)
    (P : Fin 100000 → Fin 128 → EReal) (b : Fin 128 → EReal) (n : Fin 100000) (q : Fin 128) :
    kconv srcn dst dinv P b n q
      = (∑ e ∈ into dst n, P (rowOf srcn e) q * (dinv (ix1 (rowOf srcn e)) * dinv (ix1 (rowOf dstn e)))) + b q := by
  unfold kconv
  rw [sum_mul_of_nonneg_of_ne_top _ _ (hfin (ix1 n)).1 (hfin (ix1 n)).2]
  refine congrArg (· + b q) (Finset.sum_congr rfl fun e he => ?_)
  have hn : rowOf dstn e = n := hdst e n (Finset.mem_filter.mp he).2
  rw [hn, mul_assoc]

end

/-- A sum over 128 terms is the sum of its first 64 and its last 64. -/
theorem sum_fin128_halves (f : Fin 128 → EReal) :
    ∑ k : Fin 128, f k = (∑ k : Fin 64, f ⟨k.val, by omega⟩) + ∑ k : Fin 64, f ⟨k.val + 64, by omega⟩ := by
  have h := Fin.sum_univ_add (M := EReal) (a := 64) (b := 64) (fun k : Fin (64 + 64) => f ⟨k.val, by omega⟩)
  refine Eq.trans ?_ (h.trans ?_)
  · rfl
  · refine congrArg₂ (· + ·) (Finset.sum_congr rfl fun k _ => ?_) (Finset.sum_congr rfl fun k _ => ?_)
    · rfl
    · exact congrArg f (Fin.ext (by simp [Fin.natAdd]; omega))

/-- A sum over 128 terms that vanish outside the block of 64 starting at `o` (the first or the second half) is
    the sum over that block. -/
theorem sum_fin128_block (f : Fin 128 → EReal) (o : ℕ) (ho : o = 0 ∨ o = 64)
    (hz : ∀ k : Fin 128, (k.val < o ∨ o + 64 ≤ k.val) → f k = 0) :
    ∑ k : Fin 128, f k = ∑ k : Fin 64, f ⟨k.val + o, by rcases ho with h | h <;> omega⟩ := by
  rw [sum_fin128_halves]
  rcases ho with rfl | rfl
  · have h2 : ∑ k : Fin 64, f ⟨k.val + 64, by omega⟩ = 0 :=
      Finset.sum_eq_zero fun k _ => hz _ (Or.inr (by show 0 + 64 ≤ k.val + 64; omega))
    rw [h2, add_zero]
    rfl
  · have h1 : ∑ k : Fin 64, f ⟨k.val, by omega⟩ = 0 :=
      Finset.sum_eq_zero fun k _ => hz _ (Or.inl (by show k.val < 64; exact k.isLt))
    rw [h1, zero_add]

end Cert.GcnAlgebra

end
-- ==== Proof.KernelValue.lean ====
/-
  Each 64-channel half of the kernel's last array is one branch of the specification.

  The kernel runs both branches at once, 128 channels wide: the two first-layer weight matrices sit side by side,
  the two second-layer ones are the diagonal blocks of a 128 x 128 matrix that is zero elsewhere, and the biases are
  joined end to end. Its four array stages are, with `A T` the sum over the edges into a node of the rows of `T` at
  the edges' sources and `d` the column of node weights,

      F0 = (x · Wc) ⊙ d,   F1 = max (A F0 ⊙ d + b1) 0,   F2 = (F1 · Wd) ⊙ d,   F3 = A F2 ⊙ d + b2.

  Fix a branch by its offset `o` (0 or 64). At channel `k + o` the side-by-side matrix has the branch's column `k`,
  so `F1 (r, k + o)` is the branch's hidden feature `(r, k)` once the factored convolution is rewritten as the
  specification's (the weights are non-negative reals, every edge summed at a node ends there). In column `c + o` the
  block matrix vanishes outside rows `o … o + 63`, where it is the branch's second matrix, so the 128-term product
  is the branch's 64-term one; a second rewriting of the convolution gives the branch's output at `(n, c)`.
-/
import proofs.«148197_j81801947120042_2_alg».proof.Proof.KernelReads
import proofs.«148197_j81801947120042_2_alg».proof.Proof.RegionFns
import proofs.«148197_j81801947120042_2_alg».proof.Proof.GcnAlgebra

set_option maxRecDepth 16384

noncomputable section

namespace Cert.KernelValue

open Idealize.ShloMosaic Idealize.ShloMosaic.ValueIdx Cert.KernelIdeal Cert.GcnSpec Cert.GcnAlgebra
open Cert.KernelRegions Cert.KernelReads

variable [Facts₀]
open Cert.KernelIdeal.Facts₀

variable (srcn dst : IVec S1700000x1 32) (dstn : IVec ⟨2, ![1700000, 1]⟩ 32) (dinv : FVec Ideal S100000 .f32)

/-- The gather-then-accumulate stage of a 128-wide table. -/
def aggK (T : FVec Ideal S100000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32)) dst
    (Host.gather gather_S100000x128_S1700000x1_S1700000x128_1_0_n_n_0_1_1128 T srcn)

/-- Its entry `(n, q)`: the sum over the edges into `n` of the table's entry at the source row. -/
theorem aggK_apply (T : FVec Ideal S100000x128 .f32) (n : Fin 100000) (q : Fin 128) :
    aggK srcn dst T (ix2 n q) = ∑ e ∈ into dst n, T (ix2 (rowOf srcn e) q) :=
  agg_apply T srcn dst n q

/-- A 128-wide product at row `r` and channel `q`. -/
def prod128 (X : FVec Ideal S100000x128 .f32) (W : FVec Ideal S128x128 .f32) (r : Fin 100000) (q : Fin 128) : EReal :=
  ∑ k : Fin 128, X (ix2 r k) * W (ix2 k q)

/-- Product, scale, accumulate, scale, bias: the kernel's arrangement of one convolution. -/
theorem stage_bias (X : FVec Ideal S100000x128 .f32) (W : FVec Ideal S128x128 .f32) (br : FVec Ideal S1x128 .f32)
    (dc : FVec Ideal S100000x1 .f32) (hd : ∀ r : Fin 100000, dc (ix2 r (0 : Fin 1)) = dinv (ix1 r))
    (n : Fin 100000) (q : Fin 128) :
    scaledBias (aggK srcn dst (scaledProduct X W dc)) br dc (ix2 n q)
      = kconv srcn dst dinv (prod128 X W) (fun q => br (ix2 (0 : Fin 1) q)) n q := by
  rw [scaledBias_apply, aggK_apply, hd n]
  unfold kconv
  refine congrArg (· + br (ix2 (0 : Fin 1) q)) (congrArg (· * dinv (ix1 n)) (Finset.sum_congr rfl fun e _ => ?_))
  rw [scaledProduct_apply, hd]
  rfl

/-- The same followed by the maximum with zero. -/
theorem stage_biasPos (X : FVec Ideal S100000x128 .f32) (W : FVec Ideal S128x128 .f32) (br : FVec Ideal S1x128 .f32)
    (dc : FVec Ideal S100000x1 .f32) (hd : ∀ r : Fin 100000, dc (ix2 r (0 : Fin 1)) = dinv (ix1 r))
    (n : Fin 100000) (q : Fin 128) :
    scaledBiasPos (aggK srcn dst (scaledProduct X W dc)) br dc (ix2 n q)
      = max (kconv srcn dst dinv (prod128 X W) (fun q => br (ix2 (0 : Fin 1) q)) n q) 0 := by
  rw [scaledBiasPos_apply, aggK_apply, hd n]
  unfold kconv
  refine congrArg (max · 0) (congrArg (· + br (ix2 (0 : Fin 1) q)) (congrArg (· * dinv (ix1 n))
    (Finset.sum_congr rfl fun e _ => ?_)))
  rw [scaledProduct_apply, hd]
  rfl

/-- THE HALF: channel `c + o` of the kernel's last array at node `n` is the branch's output `(n, c)`. -/
theorem half_eq (hfin : ∀ i, 0 ≤ dinv i ∧ dinv i ≠ ⊤)
    (hdst : ∀ (e : Fin 1700000) (n : Fin 100000), (dst (ix2 e (0 : Fin 1))).toInt = (n.val : Int) → rowOf dstn e = n)
    (x : FVec Ideal S100000x128 .f32) (Wc : FVec Ideal S128x128 .f32) (b1r : FVec Ideal S1x128 .f32)
    (Wd : FVec Ideal S128x128 .f32) (b2r : FVec Ideal S1x128 .f32) (dc : FVec Ideal S100000x1 .f32)
    (hd : ∀ r : Fin 100000, dc (ix2 r (0 : Fin 1)) = dinv (ix1 r))
    (W1 : (⟨2, ![128, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (o : ℕ) (ho : o = 0 ∨ o = 64) (hq : ∀ c : Fin 64, c.val + o < 128)
    (hW1 : ∀ (j : Fin 128) (c : Fin 64), Wc (ix2 j ⟨c.val + o, hq c⟩) = W1 (ix2 j c))
    (hb1 : ∀ c : Fin 64, b1r (ix2 (0 : Fin 1) ⟨c.val + o, hq c⟩) = b1 (ix1 c))
    (hW2 : ∀ (k c : Fin 64), Wd (ix2 ⟨k.val + o, hq k⟩ ⟨c.val + o, hq c⟩) = W2 (ix2 k c))
    (hW2z : ∀ (k : Fin 128) (c : Fin 64), (k.val < o ∨ o + 64 ≤ k.val) → Wd (ix2 k ⟨c.val + o, hq c⟩) = 0)
    (hb2 : ∀ c : Fin 64, b2r (ix2 (0 : Fin 1) ⟨c.val + o, hq c⟩) = b2 (ix1 c))
    (n : Fin 100000) (c : Fin 64) :
    scaledBias (aggK srcn dst (scaledProduct (scaledBiasPos (aggK srcn dst (scaledProduct x Wc dc)) b1r dc) Wd dc))
        b2r dc (ix2 n ⟨c.val + o, hq c⟩)
      = branch srcn dst dstn dinv x W1 b1 W2 b2 n c := by
  -- the side-by-side product at a channel of this branch is the branch's own product
  have hP1 : ∀ (r' : Fin 100000) (k : Fin 64), prod128 x Wc r' ⟨k.val + o, hq k⟩ = feat1 x W1 r' k := by
    intro r' k
    unfold prod128 feat1
    refine Finset.sum_congr rfl fun j _ => ?_
    rw [hW1 j k]
  -- the first layer, at any row and any channel of this branch
  have h1 : ∀ (r : Fin 100000) (k : Fin 64),
      scaledBiasPos (aggK srcn dst (scaledProduct x Wc dc)) b1r dc (ix2 r ⟨k.val + o, hq k⟩)
        = Cert.GcnSpec.hidden srcn dst dstn dinv x W1 b1 r k := by
    intro r k
    rw [stage_biasPos srcn dst dinv x Wc b1r dc hd r ⟨k.val + o, hq k⟩, kconv_eq srcn dst dstn dinv hfin hdst]
    unfold Cert.GcnSpec.hidden conv
    refine congrArg (max · 0) (congrArg₂ (· + ·) (Finset.sum_congr rfl fun e _ => ?_) (hb1 k))
    rw [hP1]
  rw [stage_bias srcn dst dinv _ Wd b2r dc hd n ⟨c.val + o, hq c⟩, kconv_eq srcn dst dstn dinv hfin hdst]
  unfold branch conv
  have hP2 : ∀ r' : Fin 100000,
      prod128 (scaledBiasPos (aggK srcn dst (scaledProduct x Wc dc)) b1r dc) Wd r' ⟨c.val + o, hq c⟩
        = feat2 (Cert.GcnSpec.hidden srcn dst dstn dinv x W1 b1) W2 r' c := by
    intro r'
    unfold prod128 feat2
    rw [sum_fin128_block _ o ho (fun k hk => by rw [hW2z k c hk, mul_zero])]
    refine Finset.sum_congr rfl fun k _ => ?_
    rw [h1 r' k, hW2 k c]
  refine congrArg₂ (· + ·) (Finset.sum_congr rfl fun e _ => ?_) (hb2 c)
  rw [hP2]

end Cert.KernelValue

end
-- ==== Proof.LibJoins.lean ====
/-
  A few layout operations read at an index, for any extents.

  A vector regarded as a column (`[a]` to `[a, 1]`); two matrices put side by side (`[m, n1]` and `[m, n2]` joined
  along the columns): a column below `n1` comes from the first, a column at or past it from the second; two
  vectors joined end to end, the same way.
-/
import Idealize.ShloMosaic.Lib.ValueIdx
import Idealize.ShloMosaic.Lib.ValueLayout
import Idealize.ShloMosaic.Lib.Pipeline.Value

noncomputable section

namespace Cert.Joins

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two matrices side by side: a column of the first. -/
theorem join_cols_left {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n1) (hc : c.val = q.val) :
    concatenate ⟨2, ![m, n1 + n2]⟩ 1 [⟨⟨2, ![m, n1]⟩, x1⟩, ⟨⟨2, ![m, n2]⟩, x2⟩] h (ix2 r q) = x1 (ix2 r c) :=
  concatenate_pair_apply_left 1 x1 x2 h (ix2 r q) rfl (ix2 r c) (fun b => by
    match b with
    | ⟨0, _⟩ => rfl
    | ⟨1, _⟩ => exact hc)

/-- Two matrices side by side: a column of the second. -/
theorem join_cols_right {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n2) (hc : c.val + n1 = q.val) :
    concatenate ⟨2, ![m, n1 + n2]⟩ 1 [⟨⟨2, ![m, n1]⟩, x1⟩, ⟨⟨2, ![m, n2]⟩, x2⟩] h (ix2 r q) = x2 (ix2 r c) :=
  concatenate_pair_apply_right 1 x1 x2 h (ix2 r q) rfl rfl (ix2 r c) (fun b hb => by
    match b with
    | ⟨0, _⟩ => rfl
    | ⟨1, _⟩ => exact absurd rfl hb) hc

/-- Two vectors end to end: an entry of the first. -/
theorem join_vec_left {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n1) (hc : c.val = q.val) :
    concatenate ⟨1, ![n1 + n2]⟩ 0 [⟨⟨1, ![n1]⟩, x1⟩, ⟨⟨1, ![n2]⟩, x2⟩] h (ix1 q) = x1 (ix1 c) :=
  concatenate_pair_apply_left 0 x1 x2 h (ix1 q) rfl (ix1 c) (fun b => by
    match b with
    | ⟨0, _⟩ => exact hc)

/-- Two vectors end to end: an entry of the second. -/
theorem join_vec_right {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n2) (hc : c.val + n1 = q.val) :
    concatenate ⟨1, ![n1 + n2]⟩ 0 [⟨⟨1, ![n1]⟩, x1⟩, ⟨⟨1, ![n2]⟩, x2⟩] h (ix1 q) = x2 (ix1 c) :=
  concatenate_pair_apply_right 0 x1 x2 h (ix1 q) rfl rfl (ix1 c) (fun b hb => by
    match b with
    | ⟨0, _⟩ => exact absurd rfl hb) hc

end Cert.Joins

end
-- ==== Proof.LibScatterBlock.lean ====
/-
  One block written into a matrix at a start given by two numbers, read at an index.

  What `x.at[o0 : o0 + m, o1 : o1 + n].set(u)` lowers to for a matrix `[M, N]`, a block `[m, n]` and the start held as a
  `[2]` array: a scatter with ONE scatter index, both update axes window axes, nothing inserted, the start's two
  components the two axes, and a body that returns the update. Update entry `(a, b)` lands at `(o0 + a, o1 + b)` when
  that is inside the matrix. Distinct update entries land at distinct places, so the order of the writes does not matter:
  entry `(r, c)` of the result is the block's entry `(r − o0, c − o1)` when `(r, c)` is in the block's range and the
  matrix's own entry otherwise.

  First two facts about any scatter whose body returns the update (a write): an element that no update lands at keeps
  its value, and an element at which updates land, all of one value, has that value.
-/
import Idealize.ShloMosaic.Lib.ValueIdx

noncomputable section

namespace Cert.LibScatterBlock

open Idealize.ShloMosaic Idealize.ShloMosaic.ValueIdx

variable {α : Type}

section Write
variable {s si u : Shape} {w : Nat}

/-- A writing scatter leaves alone an element no update lands at. -/
theorem scatter_write_of_miss (d : ScatterDims s si u) (x : s.Idx → α) (idx : IVec si w) (upd : u.Idx → α) (i : s.Idx)
    (hmiss : ∀ j, d.resultIdx? j idx ≠ some i) :
    Host.scatter d (fun _ b => b) x idx upd i = x i := by
  unfold Host.scatter
  generalize List.finRange u.numel = L
  induction L using List.reverseRecOn with
  | nil => rfl
  | append_singleton L a ih =>
    rw [List.foldl_append, List.foldl_cons, List.foldl_nil]
    rcases hg : d.resultIdx? (u.rowMajor.symm a) idx with _ | i'
    · exact ih
    · have hne : i ≠ i' := fun h => hmiss _ (hg.trans (congrArg some h.symm))
      show (if i = i' then _ else _) = _
      rw [if_neg hne]
      exact ih

/-- A writing scatter puts at an element the value of the updates that land there, when they all have one value. -/
theorem scatter_write_of_hit (d : ScatterDims s si u) (x : s.Idx → α) (idx : IVec si w) (upd : u.Idx → α) (i : s.Idx)
    (j0 : u.Idx) (h0 : d.resultIdx? j0 idx = some i) (hsame : ∀ j, d.resultIdx? j idx = some i → upd j = upd j0) :
    Host.scatter d (fun _ b => b) x idx upd i = upd j0 := by
  unfold Host.scatter
  have hmem : u.rowMajor j0 ∈ List.finRange u.numel := List.mem_finRange _
  generalize List.finRange u.numel = L at hmem
  induction L using List.reverseRecOn with
  | nil => exact absurd hmem List.not_mem_nil
  | append_singleton L a ih =>
    rw [List.foldl_append, List.foldl_cons, List.foldl_nil]
    have hin : u.rowMajor j0 ∈ L ∨ u.rowMajor j0 = a := by
      rcases List.mem_append.mp hmem with h | h
      · exact Or.inl h
      · exact Or.inr (List.mem_singleton.mp h)
    rcases hg : d.resultIdx? (u.rowMajor.symm a) idx with _ | i'
    · rcases hin with h | h
      · exact ih h
      · rw [← h, Equiv.symm_apply_apply, h0] at hg
        cases hg
    · show (if i = i' then _ else _) = _
      by_cases hii : i = i'
      · rw [if_pos hii]
        exact hsame _ (hg.trans (congrArg some hii.symm))
      · rw [if_neg hii]
        rcases hin with h | h
        · exact ih h
        · rw [← h, Equiv.symm_apply_apply, h0] at hg
          exact absurd (Option.some.inj hg) hii

end Write

/-- The dimension numbers of the block write; their conditions are decided on a program's literal shapes. -/
abbrev blockDims (M N m n : Nat) (wf : ScatterDims.WF ⟨2, ![M, N]⟩ ⟨1, ![2]⟩ ⟨2, ![m, n]⟩ [0, 1] [] [0, 1] 0) :
    ScatterDims ⟨2, ![M, N]⟩ ⟨1, ![2]⟩ ⟨2, ![m, n]⟩ where
  updateWindowDims := [0, 1]
  insertedWindowDims := []
  scatterDimsToOperandDims := [0, 1]
  indexVectorDim := 0
  wf := wf

section Block
variable {M N m n w : Nat} (wf : ScatterDims.WF ⟨2, ![M, N]⟩ ⟨1, ![2]⟩ ⟨2, ![m, n]⟩ [0, 1] [] [0, 1] 0)

/-- On the row axis the window starts at the start's first component, read signed. -/
theorem start_row (j : (⟨2, ![m, n]⟩ : Shape).Idx) (idx : IVec ⟨1, ![2]⟩ w) :
    (blockDims M N m n wf).start j idx 0 = (idx (ix1 (0 : Fin 2))).toInt := by
  unfold ScatterDims.start
  rw [dif_pos (show (0 : Fin 2) ∈ (blockDims M N m n wf).scatterDimsToOperandDims from List.mem_cons_self)]
  have hsi : (blockDims M N m n wf).siIdx j ⟨List.idxOf (0 : Fin 2) (blockDims M N m n wf).scatterDimsToOperandDims,
      List.idxOf_lt_length_iff.2 List.mem_cons_self⟩ = ix1 (0 : Fin 2) := by
    funext b; refine Fin.ext ?_
    match b with
    | ⟨0, _⟩ => rfl
  rw [hsi]

/-- On the column axis the window starts at the start's second component, read signed. -/
theorem start_col (j : (⟨2, ![m, n]⟩ : Shape).Idx) (idx : IVec ⟨1, ![2]⟩ w) :
    (blockDims M N m n wf).start j idx 1 = (idx (ix1 (1 : Fin 2))).toInt := by
  have hmem : (1 : Fin 2) ∈ (blockDims M N m n wf).scatterDimsToOperandDims :=
    List.mem_cons_of_mem _ (List.mem_singleton.mpr rfl)
  unfold ScatterDims.start
  rw [dif_pos hmem]
  have hsi : (blockDims M N m n wf).siIdx j ⟨List.idxOf (1 : Fin 2) (blockDims M N m n wf).scatterDimsToOperandDims,
      List.idxOf_lt_length_iff.2 hmem⟩ = ix1 (1 : Fin 2) := by
    funext b; refine Fin.ext ?_
    match b with
    | ⟨0, _⟩ => rfl
  rw [hsi]

/-- The row axis is a window axis: its window coordinate is the update's row. -/
theorem window_row (j : (⟨2, ![m, n]⟩ : Shape).Idx) : (blockDims M N m n wf).window j 0 = (j 0).val := by
  unfold ScatterDims.window
  rw [dif_pos (show (0 : Fin 2) ∈ (blockDims M N m n wf).sKept from by simp [ScatterDims.sKept, Shape.kept])]
  rfl

/-- The column axis is a window axis: its window coordinate is the update's column. -/
theorem window_col (j : (⟨2, ![m, n]⟩ : Shape).Idx) : (blockDims M N m n wf).window j 1 = (j 1).val := by
  unfold ScatterDims.window
  rw [dif_pos (show (1 : Fin 2) ∈ (blockDims M N m n wf).sKept from by simp [ScatterDims.sKept, Shape.kept])]
  rfl

/-- Where an update lands, for a start `(o0, o1)` of natural numbers: update index `j` lands at `(r, c)` exactly when
    `o0 + j 0 = r` and `o1 + j 1 = c`. -/
theorem resultIdx?_eq_some_iff (idx : IVec ⟨1, ![2]⟩ w) (o0 o1 : Nat)
    (h0 : (idx (ix1 (0 : Fin 2))).toInt = (o0 : Int)) (h1 : (idx (ix1 (1 : Fin 2))).toInt = (o1 : Int))
    (j : (⟨2, ![m, n]⟩ : Shape).Idx) (r : Fin M) (c : Fin N) :
    (blockDims M N m n wf).resultIdx? j idx = some (ix2 r c)
      ↔ o0 + (j 0).val = r.val ∧ o1 + (j 1).val = c.val := by
  have s0 := (start_row wf j idx).trans h0
  have s1 := (start_col wf j idx).trans h1
  have w0 := window_row wf j
  have w1 := window_col wf j
  have hr : r.val < M := r.isLt
  have hc : c.val < N := c.isLt
  unfold ScatterDims.resultIdx?
  by_cases hall : ∀ a, 0 ≤ (blockDims M N m n wf).start j idx a + (blockDims M N m n wf).window j a
      ∧ (blockDims M N m n wf).start j idx a + (blockDims M N m n wf).window j a < (⟨2, ![M, N]⟩ : Shape).size a
  · rw [dif_pos hall]
    constructor
    · intro h
      have h' := Option.some.inj h
      have e0 : ((blockDims M N m n wf).start j idx 0 + (blockDims M N m n wf).window j 0).toNat = r.val :=
        congrArg Fin.val (congrFun h' 0)
      have e1 : ((blockDims M N m n wf).start j idx 1 + (blockDims M N m n wf).window j 1).toNat = c.val :=
        congrArg Fin.val (congrFun h' 1)
      rw [s0, w0] at e0
      rw [s1, w1] at e1
      exact ⟨by omega, by omega⟩
    · rintro ⟨hs, hk⟩
      refine congrArg some (funext fun a => Fin.ext ?_)
      match a with
      | ⟨0, _⟩ =>
        show ((blockDims M N m n wf).start j idx 0 + (blockDims M N m n wf).window j 0).toNat = r.val
        rw [s0, w0]; omega
      | ⟨1, _⟩ =>
        show ((blockDims M N m n wf).start j idx 1 + (blockDims M N m n wf).window j 1).toNat = c.val
        rw [s1, w1]; omega
  · rw [dif_neg hall]
    constructor
    · intro h; cases h
    · rintro ⟨hs, hk⟩
      refine absurd (fun a => ?_) hall
      match a with
      | ⟨0, _⟩ =>
        show 0 ≤ (blockDims M N m n wf).start j idx 0 + (blockDims M N m n wf).window j 0
          ∧ (blockDims M N m n wf).start j idx 0 + (blockDims M N m n wf).window j 0 < (M : Int)
        rw [s0, w0]; omega
      | ⟨1, _⟩ =>
        show 0 ≤ (blockDims M N m n wf).start j idx 1 + (blockDims M N m n wf).window j 1
          ∧ (blockDims M N m n wf).start j idx 1 + (blockDims M N m n wf).window j 1 < (N : Int)
        rw [s1, w1]; omega

/-- THE BLOCK WRITE READ INSIDE THE BLOCK'S RANGE: the block's entry `(r − o0, c − o1)`. -/
theorem scatter_block_inside (x : (⟨2, ![M, N]⟩ : Shape).Idx → α) (idx : IVec ⟨1, ![2]⟩ w)
    (upd : (⟨2, ![m, n]⟩ : Shape).Idx → α) (o0 o1 : Nat)
    (h0 : (idx (ix1 (0 : Fin 2))).toInt = (o0 : Int)) (h1 : (idx (ix1 (1 : Fin 2))).toInt = (o1 : Int))
    (r : Fin M) (c : Fin N) (h : o0 ≤ r.val ∧ r.val < o0 + m ∧ o1 ≤ c.val ∧ c.val < o1 + n) :
    Host.scatter (blockDims M N m n wf) (fun _ b => b) x idx upd (ix2 r c)
      = upd (ix2 ⟨r.val - o0, by omega⟩ ⟨c.val - o1, by omega⟩) := by
  refine scatter_write_of_hit _ x idx upd (ix2 r c) (ix2 ⟨r.val - o0, by omega⟩ ⟨c.val - o1, by omega⟩) ?_ ?_
  · refine (resultIdx?_eq_some_iff wf idx o0 o1 h0 h1 _ r c).mpr ⟨?_, ?_⟩
    · show o0 + (r.val - o0) = r.val
      omega
    · show o1 + (c.val - o1) = c.val
      omega
  · intro j hj
    obtain ⟨e0, e1⟩ := (resultIdx?_eq_some_iff wf idx o0 o1 h0 h1 j r c).mp hj
    refine congrArg upd ?_
    rw [eq_ix2 j]
    have a0 : j 0 = (⟨r.val - o0, by omega⟩ : Fin m) := Fin.ext (by show (j 0).val = r.val - o0; omega)
    have a1 : j 1 = (⟨c.val - o1, by omega⟩ : Fin n) := Fin.ext (by show (j 1).val = c.val - o1; omega)
    rw [a0, a1]
    rfl

/-- THE BLOCK WRITE READ OUTSIDE THE BLOCK'S RANGE: the matrix's own entry. -/
theorem scatter_block_outside (x : (⟨2, ![M, N]⟩ : Shape).Idx → α) (idx : IVec ⟨1, ![2]⟩ w)
    (upd : (⟨2, ![m, n]⟩ : Shape).Idx → α) (o0 o1 : Nat)
    (h0 : (idx (ix1 (0 : Fin 2))).toInt = (o0 : Int)) (h1 : (idx (ix1 (1 : Fin 2))).toInt = (o1 : Int))
    (r : Fin M) (c : Fin N) (h : ¬ (o0 ≤ r.val ∧ r.val < o0 + m ∧ o1 ≤ c.val ∧ c.val < o1 + n)) :
    Host.scatter (blockDims M N m n wf) (fun _ b => b) x idx upd (ix2 r c) = x (ix2 r c) := by
  refine scatter_write_of_miss _ x idx upd (ix2 r c) fun j hj => h ?_
  obtain ⟨e0, e1⟩ := (resultIdx?_eq_some_iff wf idx o0 o1 h0 h1 j r c).mp hj
  have b0 : (j 0).val < m := idx2_lt0 j
  have b1 : (j 1).val < n := idx2_lt1 j
  omega

/-- THE BLOCK WRITE READ AT `(r, c)`: the block's entry `(r − o0, c − o1)` in the block's range, the matrix's own entry
    outside it. -/
theorem scatter_block_apply (x : (⟨2, ![M, N]⟩ : Shape).Idx → α) (idx : IVec ⟨1, ![2]⟩ w)
    (upd : (⟨2, ![m, n]⟩ : Shape).Idx → α) (o0 o1 : Nat)
    (h0 : (idx (ix1 (0 : Fin 2))).toInt = (o0 : Int)) (h1 : (idx (ix1 (1 : Fin 2))).toInt = (o1 : Int))
    (r : Fin M) (c : Fin N) :
    Host.scatter (blockDims M N m n wf) (fun _ b => b) x idx upd (ix2 r c)
      = if h : o0 ≤ r.val ∧ r.val < o0 + m ∧ o1 ≤ c.val ∧ c.val < o1 + n then
          upd (ix2 ⟨r.val - o0, by omega⟩ ⟨c.val - o1, by omega⟩)
        else x (ix2 r c) := by
  by_cases h : o0 ≤ r.val ∧ r.val < o0 + m ∧ o1 ≤ c.val ∧ c.val < o1 + n
  · rw [dif_pos h]
    exact scatter_block_inside wf x idx upd o0 o1 h0 h1 r c h
  · rw [dif_neg h]
    exact scatter_block_outside wf x idx upd o0 o1 h0 h1 r c h

end Block

end Cert.LibScatterBlock

end
-- ==== Proof.StageReads.lean ====
/-
  Some stages of the kernel program read at an index.

  The two first-layer weight matrices side by side: a column below 64 is a column of the first, a column from 64 on
  one of the second; the bias vectors joined end to end and regarded as a row, the same way. The second-layer weight
  matrices as the diagonal blocks of a 128 x 128 matrix of zeros: the first block is written at (0, 0), the second at
  (64, 64), and the two blocks' ranges do not meet, so an entry in a diagonal block is that matrix's entry and an entry
  in an off-diagonal block is zero. The node weights regarded as a column read the weight of the row.
-/
import proofs.«148197_j81801947120042_2_alg».proof.Proof.KernelStages
import proofs.«148197_j81801947120042_2_alg».proof.Proof.LibJoins
import proofs.«148197_j81801947120042_2_alg».proof.Proof.LibScatterBlock
import Idealize.ShloMosaic.Lib.ValueLayout
import Idealize.ShloMosaic.Lib.IdealHost

noncomputable section

namespace Cert.StageReads

open Idealize.ShloMosaic Idealize.ShloMosaic.ValueIdx
open Cert.KernelIdeal Cert.KernelStages
open Cert.KernelIdeal.Facts₀

variable [Facts₀]

/-- Contents, at the extended reals, of a buffer of the given shape and element type. -/
local notation "𝔸[" S ", " e "]" => BufTy.Contents (Elt Ideal) (BufTy.mk S e)

/-! ## The weight matrices side by side, the bias vectors end to end -/

/-- A column below 64 of the joined first-layer weights is that column of the first matrix. -/
theorem W1cat_left (a2 a6 : 𝔸[S128x64, .f32]) (j : Fin 128) (c : Fin 64) (q : Fin 128) (hq : q.val = c.val) :
    W1cat a2 a6 (ix2 j q) = a2 (ix2 j c) := by
  unfold W1cat
  exact Cert.Joins.join_cols_left a2 a6 concatenates_S128x64_S128x64_S128x128_d1 j q c hq.symm

/-- A column from 64 on of the joined first-layer weights is a column of the second matrix. -/
theorem W1cat_right (a2 a6 : 𝔸[S128x64, .f32]) (j : Fin 128) (c : Fin 64) (q : Fin 128) (hq : q.val = c.val + 64) :
    W1cat a2 a6 (ix2 j q) = a6 (ix2 j c) := by
  unfold W1cat
  exact Cert.Joins.join_cols_right a2 a6 concatenates_S128x64_S128x64_S128x128_d1 j q c hq.symm

/-- Two bias vectors end to end, as a row: an entry below 64 is an entry of the first. -/
theorem biasRow_join_left (b b' : 𝔸[S64, .f32]) (c : Fin 64) (q : Fin 128) (hq : q.val = c.val) :
    biasRow (concatenate S128 0 [⟨S64, b⟩, ⟨S64, b'⟩] concatenates_S64_S64_S128_d0) (ix2 (0 : Fin 1) q) = b (ix1 c) := by
  unfold biasRow
  rw [shapeCast_a_1a_apply]
  exact Cert.Joins.join_vec_left b b' concatenates_S64_S64_S128_d0 q c hq.symm

/-- Two bias vectors end to end, as a row: an entry from 64 on is an entry of the second. -/
theorem biasRow_join_right (b b' : 𝔸[S64, .f32]) (c : Fin 64) (q : Fin 128) (hq : q.val = c.val + 64) :
    biasRow (concatenate S128 0 [⟨S64, b⟩, ⟨S64, b'⟩] concatenates_S64_S64_S128_d0) (ix2 (0 : Fin 1) q) = b' (ix1 c) := by
  unfold biasRow
  rw [shapeCast_a_1a_apply]
  exact Cert.Joins.join_vec_right b b' concatenates_S64_S64_S128_d0 q c hq.symm

theorem biasRow_b1_left (a3 a7 : 𝔸[S64, .f32]) (c : Fin 64) (q : Fin 128) (hq : q.val = c.val) :
    biasRow (b1cat a3 a7) (ix2 (0 : Fin 1) q) = a3 (ix1 c) := biasRow_join_left a3 a7 c q hq

theorem biasRow_b1_right (a3 a7 : 𝔸[S64, .f32]) (c : Fin 64) (q : Fin 128) (hq : q.val = c.val + 64) :
    biasRow (b1cat a3 a7) (ix2 (0 : Fin 1) q) = a7 (ix1 c) := biasRow_join_right a3 a7 c q hq

theorem biasRow_b2_left (a5 a9 : 𝔸[S64, .f32]) (c : Fin 64) (q : Fin 128) (hq : q.val = c.val) :
    biasRow (b2cat a5 a9) (ix2 (0 : Fin 1) q) = a5 (ix1 c) := biasRow_join_left a5 a9 c q hq

theorem biasRow_b2_right (a5 a9 : 𝔸[S64, .f32]) (c : Fin 64) (q : Fin 128) (hq : q.val = c.val + 64) :
    biasRow (b2cat a5 a9) (ix2 (0 : Fin 1) q) = a9 (ix1 c) := biasRow_join_right a5 a9 c q hq

/-! ## The block-diagonal second-layer weights -/

/-- The start of a block: the same word twice. -/
abbrev startVec (b : BitVec 32) : 𝔸[S2, .i32] :=
  concatenate S2 0
    [⟨S1, broadcastInDim S1 ![] bcast_S_S1 (constantI S_ 32 b)⟩,
     ⟨S1, broadcastInDim S1 ![] bcast_S_S1 (constantI S_ 32 b)⟩] concatenates_S1_S1_S2_d0

/-- Its first entry is the word. -/
theorem startVec_zero (b : BitVec 32) : startVec b (ix1 (0 : Fin 2)) = b := by
  refine (Cert.Joins.join_vec_left (broadcastInDim S1 ![] bcast_S_S1 (constantI S_ 32 b))
    (broadcastInDim S1 ![] bcast_S_S1 (constantI S_ 32 b)) concatenates_S1_S1_S2_d0 (0 : Fin 2) (0 : Fin 1) rfl).trans ?_
  rw [broadcastInDim_scalar_apply]
  rfl

/-- Its second entry is the word. -/
theorem startVec_one (b : BitVec 32) : startVec b (ix1 (1 : Fin 2)) = b := by
  refine (Cert.Joins.join_vec_right (broadcastInDim S1 ![] bcast_S_S1 (constantI S_ 32 b))
    (broadcastInDim S1 ![] bcast_S_S1 (constantI S_ 32 b)) concatenates_S1_S1_S2_d0 (1 : Fin 2) (0 : Fin 1) rfl).trans ?_
  rw [broadcastInDim_scalar_apply]
  rfl

/-- The 128 x 128 matrix of zeros reads zero. -/
theorem zeros128_apply (p q : Fin 128) :
    broadcastInDim S128x128 ![] bcast_S_S128x128 (constant (F := Ideal) S_ .f32 0x00000000#32) (ix2 p q) = (0 : EReal) := by
  rw [broadcastInDim_scalar_apply, constant_apply]
  exact Ideal.ofBits_zero_f32

/-- The program's block-write dimension numbers are the general ones at these extents. -/
theorem blockDims_eq :
    scatter_S128x128_S2_S64x64_01_n_01_0
      = Cert.LibScatterBlock.blockDims 128 128 64 64 scatter_S128x128_S2_S64x64_01_n_01_0.wf := rfl

/-- The second-layer weights with the first matrix written at (0, 0) into zeros. -/
abbrev W2inner (a4 : 𝔸[S64x64, .f32]) : 𝔸[S128x128, .f32] :=
  Host.scatter scatter_S128x128_S2_S64x64_01_n_01_0 (fun _ b => b)
    (broadcastInDim S128x128 ![] bcast_S_S128x128 (constant (F := Ideal) S_ .f32 0x00000000#32)) (startVec 0#32) a4

theorem W2bd_eq (a4 a8 : 𝔸[S64x64, .f32]) :
    W2bd a4 a8 = Host.scatter scatter_S128x128_S2_S64x64_01_n_01_0 (fun _ b => b) (W2inner a4) (startVec 64#32) a8 := rfl

/-- An entry of the first diagonal block is the first matrix's entry. -/
theorem W2bd_diag_left (a4 a8 : 𝔸[S64x64, .f32]) (k c : Fin 64) (p q : Fin 128) (hp : p.val = k.val) (hq : q.val = c.val) :
    W2bd a4 a8 (ix2 p q) = a4 (ix2 k c) := by
  have hk := k.isLt
  have hc := c.isLt
  rw [W2bd_eq]
  refine (Cert.LibScatterBlock.scatter_block_outside scatter_S128x128_S2_S64x64_01_n_01_0.wf (W2inner a4)
    (startVec 64#32) a8 64 64 ((congrArg BitVec.toInt (startVec_zero 64#32)).trans (by decide))
    ((congrArg BitVec.toInt (startVec_one 64#32)).trans (by decide)) p q (by omega)).trans ?_
  refine (Cert.LibScatterBlock.scatter_block_inside scatter_S128x128_S2_S64x64_01_n_01_0.wf _
    (startVec 0#32) a4 0 0 ((congrArg BitVec.toInt (startVec_zero 0#32)).trans (by decide))
    ((congrArg BitVec.toInt (startVec_one 0#32)).trans (by decide)) p q (by omega)).trans ?_
  refine congrArg a4 ?_
  have e0 : (⟨p.val - 0, by omega⟩ : Fin 64) = k := Fin.ext (by show p.val - 0 = k.val; omega)
  have e1 : (⟨q.val - 0, by omega⟩ : Fin 64) = c := Fin.ext (by show q.val - 0 = c.val; omega)
  rw [e0, e1]

/-- An entry of the second diagonal block is the second matrix's entry. -/
theorem W2bd_diag_right (a4 a8 : 𝔸[S64x64, .f32]) (k c : Fin 64) (p q : Fin 128) (hp : p.val = k.val + 64)
    (hq : q.val = c.val + 64) : W2bd a4 a8 (ix2 p q) = a8 (ix2 k c) := by
  have hk := k.isLt
  have hc := c.isLt
  rw [W2bd_eq]
  refine (Cert.LibScatterBlock.scatter_block_inside scatter_S128x128_S2_S64x64_01_n_01_0.wf (W2inner a4)
    (startVec 64#32) a8 64 64 ((congrArg BitVec.toInt (startVec_zero 64#32)).trans (by decide))
    ((congrArg BitVec.toInt (startVec_one 64#32)).trans (by decide)) p q (by omega)).trans ?_
  refine congrArg a8 ?_
  have e0 : (⟨p.val - 64, by omega⟩ : Fin 64) = k := Fin.ext (by show p.val - 64 = k.val; omega)
  have e1 : (⟨q.val - 64, by omega⟩ : Fin 64) = c := Fin.ext (by show q.val - 64 = c.val; omega)
  rw [e0, e1]

/-- An entry of an off-diagonal block is zero. -/
theorem W2bd_off (a4 a8 : 𝔸[S64x64, .f32]) (p q : Fin 128)
    (h : (p.val < 64 ∧ 64 ≤ q.val) ∨ (64 ≤ p.val ∧ q.val < 64)) : W2bd a4 a8 (ix2 p q) = (0 : EReal) := by
  rw [W2bd_eq]
  refine (Cert.LibScatterBlock.scatter_block_outside scatter_S128x128_S2_S64x64_01_n_01_0.wf (W2inner a4)
    (startVec 64#32) a8 64 64 ((congrArg BitVec.toInt (startVec_zero 64#32)).trans (by decide))
    ((congrArg BitVec.toInt (startVec_one 64#32)).trans (by decide)) p q (by omega)).trans ?_
  refine (Cert.LibScatterBlock.scatter_block_outside scatter_S128x128_S2_S64x64_01_n_01_0.wf _
    (startVec 0#32) a4 0 0 ((congrArg BitVec.toInt (startVec_zero 0#32)).trans (by decide))
    ((congrArg BitVec.toInt (startVec_one 0#32)).trans (by decide)) p q (by omega)).trans ?_
  exact zeros128_apply p q

/-! ## The node weights as a column -/

/-- The column of node weights reads, at row `r`, the weight of node `r`. -/
theorem dcol_apply (a1 : 𝔸[S2x1600000, .i32]) (r : Fin 100000) :
    dcol a1 (ix2 r (0 : Fin 1)) = dinvArr a1 (ix1 r) := by
  unfold dcol
  exact Cert.Joins.shapeCast_a_a1_apply (dinvArr a1) shapeCasts_S100000_S100000x1 r (0 : Fin 1)

end Cert.StageReads

end
-- ==== Proof.LibGatherVec.lean ====
/-
  A vector gathered at a column of positions, read at an index, for any extents.

  What `vec[pos]` lowers to for a vector `[N]` and positions `[R]` held as an `[R, 1]` array: a gather with no offset
  axis, the vector's one axis collapsed, slices of one element. Result entry `r` is the vector at the position
  `pos (r, 0)`, read as a signed integer and clamped into `0 … N − 1`.
-/
import Idealize.ShloMosaic.Lib.ValueIdx

noncomputable section

namespace Cert.LibGatherVec

open Idealize.ShloMosaic Idealize.ShloMosaic.ValueIdx

variable {α : Type}

/-- The dimension numbers of that gather; their conditions are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the vector at the position `pos (r, 0)`, read signed and clamped into the vector. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  refine congrArg x (funext fun a => Fin.ext ?_)
  match a with
  | ⟨0, _⟩ =>
    show (vecDims N R wf).start (ix1 r) idx 0 + (vecDims N R wf).batchCoord (ix1 r) 0
      + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherVec

end
-- ==== Proof.RefSide.lean ====
/-
  The reference program as the function of the specification.

  The reference is read stage by stage (the imported reading). Here its two branch outputs are shown to be the
  specification's branch at the reference's own edge columns and node weights, and two facts about those columns and
  weights are proved: an edge whose destination number is a node reads that node's row, and every node weight is a
  non-negative real.
-/
import proofs.«148197_j81801947120042_2_alg».proof.Proof.RefReadP
import proofs.«148197_j81801947120042_2_alg».proof.Proof.GcnSpec
import proofs.«148197_j81801947120042_2_alg».proof.Proof.LibGatherVec
import proofs.«148197_j81801947120042_2_alg».proof.Proof.LibGatherRows
import proofs.«148197_j81801947120042_2_alg».proof.Proof.LibScatterAddRows

noncomputable section

namespace Cert.RefSide

open Cert.ReferenceIdeal Cert.ReferenceIdeal.Gen Idealize.ShloMosaic Idealize.ShloMosaic.ValueIdx

/-! ## Two facts about words and extended reals -/

/-- A 32-bit word that is not negative read signed is not below zero in the signed comparison. -/
theorem cmpi_slt_zero_of_nonneg (d : BitVec 32) (h : 0 ≤ d.toInt) : IntOp.cmpi .slt d 0#32 = 0#1 := by
  have hb : d.slt 0#32 = false := by
    unfold BitVec.slt
    have hz : (0#32 : BitVec 32).toInt = 0 := by decide
    rw [hz]
    exact decide_eq_false (by omega)
  simp only [IntOp.cmpi, hb]
  rfl

/-- The reciprocal square root of a degree, kept where the degree is positive and replaced by zero elsewhere, is a
    non-negative real: at a positive real it is the reciprocal of a square root, at `⊤` it is zero. -/
theorem select_rsqrt_fin (deg : EReal) :
    0 ≤ Scalar.select (Ideal.cmp .ogt deg 0) (Ideal.rsqrt deg) (0 : EReal)
      ∧ Scalar.select (Ideal.cmp .ogt deg 0) (Ideal.rsqrt deg) (0 : EReal) ≠ ⊤ := by
  by_cases hpos : (0 : EReal) < deg
  · have hc : Ideal.cmp .ogt deg 0 = 1#1 := by
      simp only [Ideal.cmp, hpos, decide_true]
      rfl
    rw [hc, select_one]
    induction deg using EReal.rec with
    | bot => exact absurd hpos (not_lt_bot)
    | coe r =>
      have hr : 0 < r := by exact_mod_cast hpos
      rw [Ideal.rsqrt_coe, if_neg (not_lt.mpr hr.le), if_neg (ne_of_gt hr)]
      exact ⟨EReal.coe_nonneg.mpr (inv_nonneg.mpr (Real.sqrt_nonneg r)), EReal.coe_ne_top _⟩
    | top =>
      rw [Ideal.rsqrt_top]
      exact ⟨le_refl _, EReal.zero_ne_top⟩
  · have hc : Ideal.cmp .ogt deg 0 = 0#1 := by
      simp only [Ideal.cmp, hpos, decide_false]
      rfl
    rw [hc, select_zero]
    exact ⟨le_refl _, EReal.zero_ne_top⟩

/-! ## The destination column and the node weights -/

/-- An edge whose destination number, read signed, is node `n` reads row `n` of a table through the normalised
    destination column: the number is not negative, so the normalisation keeps it, and it is below the number of
    nodes, so the clamp keeps it. -/
theorem ref_dst_row (x1 : (⟨S2x1600000, .i32⟩ : BufTy).Contents (Elt Ideal)) (e : Fin 1700000) (n : Fin 100000)
    (h : ((ReadP.val_main_v9 (F := Ideal) x1) (ix2 e (0 : Fin 1))).toInt = (n.val : Int)) :
    Cert.GcnSpec.rowOf (ReadP.val_main_v27 (F := Ideal) x1) e = n := by
  have hidx9 : ReadP.idx_main_v9 (ix2 e (0 : Fin 1)) = ix1 e := funext fun a => by
    match a with
    | ⟨0, _⟩ => rfl
  have hidx27 : ReadP.idx_main_v27 (ix2 e (0 : Fin 1)) = ix1 e := funext fun a => by
    match a with
    | ⟨0, _⟩ => rfl
  rw [ReadP.val_main_v9_apply, hidx9] at h
  have h27 : ReadP.val_main_v27 (F := Ideal) x1 (ix2 e (0 : Fin 1)) = ReadP.val_main_v6 (F := Ideal) x1 (ix1 e) := by
    rw [ReadP.val_main_v27_apply, hidx27, ReadP.val_main_v26_apply, ReadP.val_main_v23_apply,
      ReadP.val_main_v22_apply, ReadP.val_main_c_4_apply,
      cmpi_slt_zero_of_nonneg _ (by rw [h]; exact Int.natCast_nonneg _), select_zero]
  refine Fin.ext ?_
  show min (ReadP.val_main_v27 (F := Ideal) x1 (ix2 e (0 : Fin 1))).toInt.toNat (100000 - 1) = n.val
  rw [h27, h]
  have := n.isLt
  omega

/-- Every node weight is a non-negative real. -/
theorem ref_dinv_fin (x1 : (⟨S2x1600000, .i32⟩ : BufTy).Contents (Elt Ideal)) (i : S100000.Idx) :
    (0 : EReal) ≤ ReadP.val_main_v14 (F := Ideal) x1 i ∧ (ReadP.val_main_v14 (F := Ideal) x1 i : EReal) ≠ ⊤ := by
  rw [ReadP.val_main_v14_apply, ReadP.val_main_v12_apply, ReadP.val_main_v13_apply, ReadP.val_main_call0_v1_apply,
    ReadP.val_main_call0_v0_apply, ReadP.val_main_cst_2_apply, ReadP.val_main_v11_apply, ReadP.val_main_cst_1_apply]
  have hz : FloatOps.ofBits (F := Ideal) .f32 0x00000000#32 = (0 : EReal) := Ideal.ofBits_zero_f32
  rw [hz, Ideal.cmpf_def, Ideal.hostUnary_rsqrt_def]
  exact select_rsqrt_fin _

/-! ## One convolution, for any feature array -/

/-- A vector of node values gathered at an edge column reads, at edge `e`, the value at the row the column selects. -/
theorem gather_node_apply (d : FVec Ideal S100000 .f32) (col : IVec S1700000x1 32) (e : Fin 1700000) :
    Host.gather gather_S100000_S1700000x1_S1700000_n_0_n_n_0_1_1 d col (ix1 e) = d (ix1 (Cert.GcnSpec.rowOf col e)) :=
  Cert.LibGatherVec.gather_vec_apply (by decide) gather_S100000_S1700000x1_S1700000_n_0_n_n_0_1_1.wf d col e

/-- A table of node features gathered at an edge column reads, at edge `e` and channel `k`, channel `k` of the row the
    column selects. -/
theorem gather_feat_apply (P : FVec Ideal S100000x64 .f32) (col : IVec S1700000x1 32) (e : Fin 1700000) (k : Fin 64) :
    Host.gather gather_S100000x64_S1700000x1_S1700000x64_1_0_n_n_0_1_164 P col (ix2 e k)
      = P (ix2 (Cert.GcnSpec.rowOf col e) k) :=
  Cert.LibGatherRows.gather_rows_apply (by decide) gather_S100000x64_S1700000x1_S1700000x64_1_0_n_n_0_1_164.wf P col e k

/-- The accumulation of the gathered and weighted features into a table `z`, at node `n` and channel `c`: `z`'s entry
    plus the sum over the edges into `n` of the source row's channel `c` times the edge's weight. -/
theorem conv_core_apply (z P : FVec Ideal S100000x64 .f32) (srcCol dstCol : IVec S1700000x1 32)
    (nrm : FVec Ideal S1700000x64 .f32) (n : Fin 100000) (c : Fin 64) :
    Host.scatterAdd scatter_S100000x64_S1700000x1_S1700000x64_1_0_0_1 z dstCol
        (mulf (Host.gather gather_S100000x64_S1700000x1_S1700000x64_1_0_n_n_0_1_164 P srcCol) nrm) (ix2 n c)
      = z (ix2 n c) + ∑ e ∈ Cert.GcnSpec.into dstCol n, P (ix2 (Cert.GcnSpec.rowOf srcCol e) c) * nrm (ix2 e c) := by
  refine (Cert.LibScatterAddRows.host_scatterAdd_rows_apply
    scatter_S100000x64_S1700000x1_S1700000x64_1_0_0_1.wf z dstCol _ n c).trans ?_
  refine congrArg (fun t => z (ix2 n c) + t) (Finset.sum_congr rfl fun e _ => ?_)
  show Host.gather gather_S100000x64_S1700000x1_S1700000x64_1_0_n_n_0_1_164 P srcCol (ix2 e c) * nrm (ix2 e c) = _
  rw [gather_feat_apply]

/-- ONE CONVOLUTION: accumulating into a zero table with edge weights the product of the two node weights, then adding
    a bias that depends on the channel only, is the specification's convolution. -/
theorem conv_generic (P z bb : FVec Ideal S100000x64 .f32) (srcCol dstCol dstnCol : IVec S1700000x1 32)
    (dinv : FVec Ideal S100000 .f32) (nrm : FVec Ideal S1700000x64 .f32) (b : FVec Ideal S64 .f32)
    (hz : ∀ n c, z (ix2 n c) = 0)
    (hn : ∀ e c, nrm (ix2 e c)
      = dinv (ix1 (Cert.GcnSpec.rowOf srcCol e)) * dinv (ix1 (Cert.GcnSpec.rowOf dstnCol e)))
    (hb : ∀ n c, bb (ix2 n c) = b (ix1 c)) (n : Fin 100000) (c : Fin 64) :
    addf (Host.scatterAdd scatter_S100000x64_S1700000x1_S1700000x64_1_0_0_1 z dstCol
        (mulf (Host.gather gather_S100000x64_S1700000x1_S1700000x64_1_0_n_n_0_1_164 P srcCol) nrm)) bb (ix2 n c)
      = Cert.GcnSpec.conv srcCol dstCol dstnCol dinv (fun r k => P (ix2 r k)) (fun k => b (ix1 k)) n c := by
  show Host.scatterAdd scatter_S100000x64_S1700000x1_S1700000x64_1_0_0_1 z dstCol
        (mulf (Host.gather gather_S100000x64_S1700000x1_S1700000x64_1_0_n_n_0_1_164 P srcCol) nrm) (ix2 n c)
      + bb (ix2 n c) = _
  rw [conv_core_apply, hz, zero_add, hb]
  unfold Cert.GcnSpec.conv
  refine congrArg (fun t => t + b (ix1 c)) (Finset.sum_congr rfl fun e _ => ?_)
  rw [hn]

/-! ## The reference's stages -/

/-- The argument types of the reference, at the extended reals. -/
abbrev XFeat := (⟨S100000x128, .f32⟩ : BufTy).Contents (Elt Ideal)
abbrev XEdge := (⟨S2x1600000, .i32⟩ : BufTy).Contents (Elt Ideal)
abbrev XW1 := (⟨S128x64, .f32⟩ : BufTy).Contents (Elt Ideal)
abbrev XW2 := (⟨S64x64, .f32⟩ : BufTy).Contents (Elt Ideal)
abbrev XBias := (⟨S64, .f32⟩ : BufTy).Contents (Elt Ideal)

/-- The zero table reads zero. -/
theorem zeros_apply (n : Fin 100000) (c : Fin 64) : ReadP.val_main_v41 (F := Ideal) (ix2 n c) = 0 := by
  rw [ReadP.val_main_v41_apply, ReadP.val_main_cst_8_apply]
  exact Ideal.ofBits_zero_f32

/-- The table the maximum is taken with reads zero. -/
theorem relu_zeros_apply (n : Fin 100000) (c : Fin 64) : ReadP.val_main_call1_v0 (F := Ideal) (ix2 n c) = 0 := by
  rw [ReadP.val_main_call1_v0_apply, ReadP.val_main_call1_cst_apply]
  exact Ideal.ofBits_zero_f32

/-- A bias broadcast over the nodes reads, at node `n` and channel `c`, the bias of channel `c`. -/
theorem bias_apply (b : XBias) (n : Fin 100000) (c : Fin 64) :
    ReadP.val_main_v45 (F := Ideal) b (ix2 n c) = b (ix1 c) := by
  rw [ReadP.val_main_v45_apply, ReadP.val_main_v44_apply]
  refine congrArg b (funext fun a => ?_)
  match a with
  | ⟨0, _⟩ => rfl

/-- The edge weights broadcast over the channels read, at edge `e`, the product of the node weights of the edge's source
    and destination rows. -/
theorem norm_apply (x1 : XEdge) (e : Fin 1700000) (c : Fin 64) :
    ReadP.val_main_v39 (F := Ideal) x1 (ix2 e c)
      = ReadP.val_main_v14 (F := Ideal) x1 (ix1 (Cert.GcnSpec.rowOf (ReadP.val_main_v20 (F := Ideal) x1) e))
        * ReadP.val_main_v14 (F := Ideal) x1 (ix1 (Cert.GcnSpec.rowOf (ReadP.val_main_v27 (F := Ideal) x1) e)) := by
  rw [ReadP.val_main_v39_apply, ReadP.val_main_v38_apply]
  have hi : ReadP.idx_main_v38 (ReadP.idx_main_v39 (ix2 e c)) = ix1 e := funext fun a => by
    match a with
    | ⟨0, _⟩ => rfl
  rw [hi, ReadP.val_main_v29_apply]
  exact congrArg₂ (fun s t : EReal => s * t)
    (gather_node_apply (ReadP.val_main_v14 (F := Ideal) x1) (ReadP.val_main_v20 (F := Ideal) x1) e)
    (gather_node_apply (ReadP.val_main_v14 (F := Ideal) x1) (ReadP.val_main_v27 (F := Ideal) x1) e)

/-- One convolution layer of the reference as an array: the accumulation of the gathered, weighted features `P` into
    the zero table, plus the broadcast bias. -/
def layer (x1 : XEdge) (P : FVec Ideal S100000x64 .f32) (b : XBias) : FVec Ideal S100000x64 .f32 :=
  addf (Host.scatterAdd scatter_S100000x64_S1700000x1_S1700000x64_1_0_0_1 (ReadP.val_main_v41 (F := Ideal))
      (ReadP.val_main_v9 (F := Ideal) x1)
      (mulf (Host.gather gather_S100000x64_S1700000x1_S1700000x64_1_0_n_n_0_1_164 P (ReadP.val_main_v20 (F := Ideal) x1))
        (ReadP.val_main_v39 (F := Ideal) x1)))
    (ReadP.val_main_v45 (F := Ideal) b)

/-- A layer read at node `n` and channel `c` is the specification's convolution at the reference's own columns and
    node weights. -/
theorem layer_apply (x1 : XEdge) (P : FVec Ideal S100000x64 .f32) (b : XBias) (n : Fin 100000) (c : Fin 64) :
    layer x1 P b (ix2 n c)
      = Cert.GcnSpec.conv (ReadP.val_main_v20 (F := Ideal) x1) (ReadP.val_main_v9 (F := Ideal) x1)
          (ReadP.val_main_v27 (F := Ideal) x1) (ReadP.val_main_v14 (F := Ideal) x1)
          (fun r k => P (ix2 r k)) (fun k => b (ix1 k)) n c :=
  conv_generic P (ReadP.val_main_v41 (F := Ideal)) (ReadP.val_main_v45 (F := Ideal) b)
    (ReadP.val_main_v20 (F := Ideal) x1) (ReadP.val_main_v9 (F := Ideal) x1) (ReadP.val_main_v27 (F := Ideal) x1)
    (ReadP.val_main_v14 (F := Ideal) x1) (ReadP.val_main_v39 (F := Ideal) x1) b
    zeros_apply (norm_apply x1) (bias_apply b) n c

/-! ### The four accumulations are layers

The program recomputes the degrees, the node weights, the normalised columns and the edge weights before each
accumulation; each copy is the same term as the first, so each accumulation is a layer by unfolding. -/

theorem v46_eq (x0 : XFeat) (x1 : XEdge) (x2 : XW1) (x3 : XBias) :
    ReadP.val_main_v46 (F := Ideal) x0 x1 x2 x3 = layer x1 (ReadP.val_main_v30 (F := Ideal) x0 x2) x3 := rfl

theorem v87_eq (x0 : XFeat) (x1 : XEdge) (x2 : XW1) (x3 : XBias) (x4 : XW2) (x5 : XBias) :
    ReadP.val_main_v87 (F := Ideal) x0 x1 x2 x3 x4 x5
      = layer x1 (ReadP.val_main_v71 (F := Ideal) x0 x1 x2 x3 x4) x5 := rfl

theorem v127_eq (x0 : XFeat) (x1 : XEdge) (x6 : XW1) (x7 : XBias) :
    ReadP.val_main_v127 (F := Ideal) x0 x1 x6 x7 = layer x1 (ReadP.val_main_v30 (F := Ideal) x0 x6) x7 := rfl

theorem v168_eq (x0 : XFeat) (x1 : XEdge) (x6 : XW1) (x7 : XBias) (x8 : XW2) (x9 : XBias) :
    ReadP.val_main_v168 (F := Ideal) x0 x1 x6 x7 x8 x9
      = layer x1 (ReadP.val_main_v152 (F := Ideal) x0 x1 x6 x7 x8) x9 := rfl

/-! ### The features -/

/-- The first product is the specification's first feature map. -/
theorem feat1_eq (x0 : XFeat) (W : XW1) :
    (fun (r : Fin 100000) (k : Fin 64) => ReadP.val_main_v30 (F := Ideal) x0 W (ix2 r k)) = Cert.GcnSpec.feat1 x0 W := by
  funext r k
  rw [ReadP.val_main_v30_apply]
  unfold Cert.GcnSpec.feat1
  refine Finset.sum_congr rfl fun q _ => ?_
  have hl : ReadP.lidx_main_v30 (ix2 r k) q = ix2 r q := funext fun a => by
    match a with
    | ⟨0, _⟩ => rfl
    | ⟨1, _⟩ => rfl
  have hr : ReadP.ridx_main_v30 (ix2 r k) q = ix2 q k := funext fun a => by
    match a with
    | ⟨0, _⟩ => rfl
    | ⟨1, _⟩ => rfl
  rw [hl, hr]

/-- The hidden features of the first branch. -/
theorem hidden_in (x0 : XFeat) (x1 : XEdge) (x2 : XW1) (x3 : XBias) (n : Fin 100000) (c : Fin 64) :
    ReadP.val_main_v47 (F := Ideal) x0 x1 x2 x3 (ix2 n c)
      = Cert.GcnSpec.hidden (ReadP.val_main_v20 (F := Ideal) x1) (ReadP.val_main_v9 (F := Ideal) x1)
          (ReadP.val_main_v27 (F := Ideal) x1) (ReadP.val_main_v14 (F := Ideal) x1) x0 x2 x3 n c := by
  rw [ReadP.val_main_v47_apply, relu_zeros_apply, v46_eq, layer_apply, feat1_eq]
  rfl

/-- The hidden features of the second branch. -/
theorem hidden_out (x0 : XFeat) (x1 : XEdge) (x6 : XW1) (x7 : XBias) (n : Fin 100000) (c : Fin 64) :
    ReadP.val_main_v128 (F := Ideal) x0 x1 x6 x7 (ix2 n c)
      = Cert.GcnSpec.hidden (ReadP.val_main_v20 (F := Ideal) x1) (ReadP.val_main_v9 (F := Ideal) x1)
          (ReadP.val_main_v27 (F := Ideal) x1) (ReadP.val_main_v14 (F := Ideal) x1) x0 x6 x7 n c := by
  rw [ReadP.val_main_v128_apply]
  have hz : ReadP.val_main_call4_v0 (F := Ideal) (ix2 n c) = 0 := relu_zeros_apply n c
  rw [hz, v127_eq, layer_apply, feat1_eq]
  rfl

/-- The second product of the first branch is the specification's second feature map of the hidden features. -/
theorem feat2_in (x0 : XFeat) (x1 : XEdge) (x2 : XW1) (x3 : XBias) (x4 : XW2) :
    (fun (r : Fin 100000) (k : Fin 64) => ReadP.val_main_v71 (F := Ideal) x0 x1 x2 x3 x4 (ix2 r k))
      = Cert.GcnSpec.feat2 (Cert.GcnSpec.hidden (ReadP.val_main_v20 (F := Ideal) x1) (ReadP.val_main_v9 (F := Ideal) x1)
          (ReadP.val_main_v27 (F := Ideal) x1) (ReadP.val_main_v14 (F := Ideal) x1) x0 x2 x3) x4 := by
  funext r k
  rw [ReadP.val_main_v71_apply]
  unfold Cert.GcnSpec.feat2
  refine Finset.sum_congr rfl fun q _ => ?_
  have hl : ReadP.lidx_main_v71 (ix2 r k) q = ix2 r q := funext fun a => by
    match a with
    | ⟨0, _⟩ => rfl
    | ⟨1, _⟩ => rfl
  have hr : ReadP.ridx_main_v71 (ix2 r k) q = ix2 q k := funext fun a => by
    match a with
    | ⟨0, _⟩ => rfl
    | ⟨1, _⟩ => rfl
  rw [hl, hr, hidden_in]

/-- The second product of the second branch, likewise. -/
theorem feat2_out (x0 : XFeat) (x1 : XEdge) (x6 : XW1) (x7 : XBias) (x8 : XW2) :
    (fun (r : Fin 100000) (k : Fin 64) => ReadP.val_main_v152 (F := Ideal) x0 x1 x6 x7 x8 (ix2 r k))
      = Cert.GcnSpec.feat2 (Cert.GcnSpec.hidden (ReadP.val_main_v20 (F := Ideal) x1) (ReadP.val_main_v9 (F := Ideal) x1)
          (ReadP.val_main_v27 (F := Ideal) x1) (ReadP.val_main_v14 (F := Ideal) x1) x0 x6 x7) x8 := by
  funext r k
  rw [ReadP.val_main_v152_apply]
  unfold Cert.GcnSpec.feat2
  refine Finset.sum_congr rfl fun q _ => ?_
  have hl : ReadP.lidx_main_v152 (ix2 r k) q = ix2 r q := funext fun a => by
    match a with
    | ⟨0, _⟩ => rfl
    | ⟨1, _⟩ => rfl
  have hr : ReadP.ridx_main_v152 (ix2 r k) q = ix2 q k := funext fun a => by
    match a with
    | ⟨0, _⟩ => rfl
    | ⟨1, _⟩ => rfl
  rw [hl, hr, hidden_out]

/-! ## The two branch outputs -/

/-- THE FIRST BRANCH of the reference is the specification's branch at the reference's own columns and node weights. -/
theorem ref_in (x0 : XFeat) (x1 : XEdge) (x2 : XW1) (x3 : XBias) (x4 : XW2) (x5 : XBias) :
    ReadP.val_main_v87 (F := Ideal) x0 x1 x2 x3 x4 x5
      = Cert.GcnSpec.branchArr (ReadP.val_main_v20 (F := Ideal) x1) (ReadP.val_main_v9 (F := Ideal) x1)
          (ReadP.val_main_v27 (F := Ideal) x1) (ReadP.val_main_v14 (F := Ideal) x1) x0 x2 x3 x4 x5 := by
  funext i
  obtain ⟨n, c, rfl⟩ : ∃ (n : Fin 100000) (c : Fin 64), i = ix2 n c := ⟨i 0, i 1, eq_ix2 i⟩
  rw [v87_eq, layer_apply, feat2_in]
  rfl

/-- THE SECOND BRANCH of the reference, likewise. -/
theorem ref_out (x0 : XFeat) (x1 : XEdge) (x6 : XW1) (x7 : XBias) (x8 : XW2) (x9 : XBias) :
    ReadP.val_main_v168 (F := Ideal) x0 x1 x6 x7 x8 x9
      = Cert.GcnSpec.branchArr (ReadP.val_main_v20 (F := Ideal) x1) (ReadP.val_main_v9 (F := Ideal) x1)
          (ReadP.val_main_v27 (F := Ideal) x1) (ReadP.val_main_v14 (F := Ideal) x1) x0 x6 x7 x8 x9 := by
  funext i
  obtain ⟨n, c, rfl⟩ : ∃ (n : Fin 100000) (c : Fin 64), i = ix2 n c := ⟨i 0, i 1, eq_ix2 i⟩
  rw [v168_eq, layer_apply, feat2_out]
  rfl

end Cert.RefSide

end
-- ==== Proof.Columns.lean ====
/-
  The two programs' edge columns, node weights and final stacking are the same terms.

  The kernel program and the reference compute the source column, the destination column and the node weights from the
  edge array by the same operations on arrays of the same shapes; as terms they differ only in which program's records
  they name, and those records differ only in their proofs. Both programs end by stacking two 100000 x 64 arrays; for
  the kernel program they are the two column halves of a 100000 x 128 array.
-/
import proofs.«148197_j81801947120042_2_alg».proof.Proof.KernelStages
import proofs.«148197_j81801947120042_2_alg».proof.Proof.RefSide
import Idealize.ShloMosaic.Lib.ValueLayout

noncomputable section

namespace Cert.Columns

open Idealize.ShloMosaic Idealize.ShloMosaic.ValueIdx

variable [Cert.KernelIdeal.Facts₀]

/-- Contents, at the extended reals, of a buffer of the given shape and element type. -/
local notation "𝔸[" S ", " e "]" => BufTy.Contents (Elt Ideal) (BufTy.mk S e)

/-! ## The columns and the node weights -/

/-- The normalised source column is the same in both programs. -/
theorem col_src (a1 : 𝔸[Cert.KernelIdeal.S2x1600000, .i32]) :
    Cert.KernelStages.srcnCol a1 = Cert.ReferenceIdeal.ReadP.val_main_v20 (F := Ideal) a1 := rfl

/-- The destination column is the same in both programs. -/
theorem col_dst (a1 : 𝔸[Cert.KernelIdeal.S2x1600000, .i32]) :
    Cert.KernelStages.dstCol a1 = Cert.ReferenceIdeal.ReadP.val_main_v9 (F := Ideal) a1 := rfl

/-- The node weights are the same in both programs. -/
theorem col_dinv (a1 : 𝔸[Cert.KernelIdeal.S2x1600000, .i32]) :
    Cert.KernelStages.dinvArr a1 = Cert.ReferenceIdeal.ReadP.val_main_v14 (F := Ideal) a1 := rfl

/-! ## The final stacking -/

/-- Two 100000 x 64 arrays stacked as the two slabs of a 2 x 100000 x 64 array. -/
def stack (P Q : (⟨2, ![100000, 64]⟩ : Shape).Idx → EReal) : (⟨3, ![2, 100000, 64]⟩ : Shape).Idx → EReal :=
  concatenate Cert.ReferenceIdeal.S2x100000x64 0
    [⟨Cert.ReferenceIdeal.S1x100000x64, broadcastInDim Cert.ReferenceIdeal.S1x100000x64 ![1, 2]
        Cert.ReferenceIdeal.Facts₀.bcast_S100000x64_S1x100000x64_1_2 P⟩,
     ⟨Cert.ReferenceIdeal.S1x100000x64, broadcastInDim Cert.ReferenceIdeal.S1x100000x64 ![1, 2]
        Cert.ReferenceIdeal.Facts₀.bcast_S100000x64_S1x100000x64_1_2 Q⟩]
    Cert.ReferenceIdeal.Facts₀.concatenates_S1x100000x64_S1x100000x64_S2x100000x64_d0

/-- The reference's result is its two branch outputs stacked. -/
theorem ref_stack (a0 : 𝔸[Cert.ReferenceIdeal.S100000x128, .f32]) (a1 : 𝔸[Cert.ReferenceIdeal.S2x1600000, .i32])
    (a2 : 𝔸[Cert.ReferenceIdeal.S128x64, .f32]) (a3 : 𝔸[Cert.ReferenceIdeal.S64, .f32])
    (a4 : 𝔸[Cert.ReferenceIdeal.S64x64, .f32]) (a5 : 𝔸[Cert.ReferenceIdeal.S64, .f32])
    (a6 : 𝔸[Cert.ReferenceIdeal.S128x64, .f32]) (a7 : 𝔸[Cert.ReferenceIdeal.S64, .f32])
    (a8 : 𝔸[Cert.ReferenceIdeal.S64x64, .f32]) (a9 : 𝔸[Cert.ReferenceIdeal.S64, .f32]) :
    Cert.ReferenceIdeal.ReadP.val_main_v171 (F := Ideal) a0 a1 a2 a3 a4 a5 a6 a7 a8 a9
      = stack (Cert.ReferenceIdeal.ReadP.val_main_v87 (F := Ideal) a0 a1 a2 a3 a4 a5)
          (Cert.ReferenceIdeal.ReadP.val_main_v168 (F := Ideal) a0 a1 a6 a7 a8 a9) := rfl

/-- The kernel program's result is the two column halves of its last array stacked. -/
theorem kernel_stack (T : 𝔸[Cert.KernelIdeal.S100000x128, .f32]) :
    Cert.KernelStages.split T
      = stack (extractStridedSlice Cert.KernelIdeal.S100000x64 ![0, 0] T
            Cert.KernelIdeal.Facts₀.slices_S100000x128_S100000x64_0_0)
          (extractStridedSlice Cert.KernelIdeal.S100000x64 ![0, 64] T
            Cert.KernelIdeal.Facts₀.slices_S100000x128_S100000x64_0_64) := rfl

/-- The left half reads, at column `c`, column `c` of the array. -/
theorem slice_left (T : 𝔸[Cert.KernelIdeal.S100000x128, .f32]) (n : Fin 100000) (c : Fin 64) (q : Fin 128)
    (hq : q.val = c.val) :
    extractStridedSlice Cert.KernelIdeal.S100000x64 ![0, 0] T
      Cert.KernelIdeal.Facts₀.slices_S100000x128_S100000x64_0_0 (ix2 n c) = T (ix2 n q) :=
  slice2_axis1_apply 0 T Cert.KernelIdeal.Facts₀.slices_S100000x128_S100000x64_0_0 n c q (by omega)

/-- The right half reads, at column `c`, column `c + 64` of the array. -/
theorem slice_right (T : 𝔸[Cert.KernelIdeal.S100000x128, .f32]) (n : Fin 100000) (c : Fin 64) (q : Fin 128)
    (hq : q.val = c.val + 64) :
    extractStridedSlice Cert.KernelIdeal.S100000x64 ![0, 64] T
      Cert.KernelIdeal.Facts₀.slices_S100000x128_S100000x64_0_64 (ix2 n c) = T (ix2 n q) :=
  slice2_axis1_apply 64 T Cert.KernelIdeal.Facts₀.slices_S100000x128_S100000x64_0_64 n c q (by omega)

end Cert.Columns

end
-- ==== Proof.KernelSide.lean ====
/-
  The idealized kernel's run with its result in the specification's form.

  The run's last boundary holds, at the result buffer, the stacked halves of the last array (the fold of the host
  stretches and of the four regions' closed forms). Each half is one branch of the specification: the kernel's edge
  columns and node weights are, operation for operation, the reference's, so the reference's two facts — the weights
  are non-negative reals, an edge accumulated at a node has that node as its clamped destination — hold of them, and
  the joined weights and biases read as the branch's own at the branch's channels.
-/
import proofs.«148197_j81801947120042_2_alg».proof.Proof.KernelRun
import proofs.«148197_j81801947120042_2_alg».proof.Proof.KernelChain
import proofs.«148197_j81801947120042_2_alg».proof.Proof.KernelValue
import proofs.«148197_j81801947120042_2_alg».proof.Proof.StageReads
import proofs.«148197_j81801947120042_2_alg».proof.Proof.Columns
import proofs.«148197_j81801947120042_2_alg».proof.Proof.RefSide

set_option maxRecDepth 16384

noncomputable section

namespace Cert.KernelSide

open Idealize.ShloMosaic Idealize.ShloMosaic.ValueIdx Idealize.ShloMosaic.TcCoe Idealize.SL.Sem
open Cert.KernelIdeal Cert.KernelIdeal.Gen Cert.KernelStages Cert.KernelRegions Cert.KernelValue
open Cert.GcnSpec Cert.StageReads Cert.Columns Cert.RefSide

variable [Facts₀]
open Cert.KernelIdeal.Facts₀

/-- Contents, at the extended reals, of a buffer of the given shape and element type. -/
local notation "𝔸[" S ", " e "]" => BufTy.Contents (Elt Ideal) (BufTy.mk S e)

/-- Both branches of the specification stacked, as a function of the ten arguments. -/
def specVal (a0 : 𝔸[S100000x128, .f32]) (a1 : 𝔸[S2x1600000, .i32]) (a2 : 𝔸[S128x64, .f32]) (a3 : 𝔸[S64, .f32])
    (a4 : 𝔸[S64x64, .f32]) (a5 : 𝔸[S64, .f32]) (a6 : 𝔸[S128x64, .f32]) (a7 : 𝔸[S64, .f32]) (a8 : 𝔸[S64x64, .f32])
    (a9 : 𝔸[S64, .f32]) :=
  stack
    (branchArr (Cert.ReferenceIdeal.ReadP.val_main_v20 (F := Ideal) a1) (Cert.ReferenceIdeal.ReadP.val_main_v9 (F := Ideal) a1) (Cert.ReferenceIdeal.ReadP.val_main_v27 (F := Ideal) a1)
      (Cert.ReferenceIdeal.ReadP.val_main_v14 (F := Ideal) a1) a0 a2 a3 a4 a5)
    (branchArr (Cert.ReferenceIdeal.ReadP.val_main_v20 (F := Ideal) a1) (Cert.ReferenceIdeal.ReadP.val_main_v9 (F := Ideal) a1) (Cert.ReferenceIdeal.ReadP.val_main_v27 (F := Ideal) a1)
      (Cert.ReferenceIdeal.ReadP.val_main_v14 (F := Ideal) a1) a0 a6 a7 a8 a9)

/-- One half of the kernel's last array is a branch: the first half (`o = 0`) with the first parameter set. -/
theorem half_in (a0 : 𝔸[S100000x128, .f32]) (a1 : 𝔸[S2x1600000, .i32]) (a2 : 𝔸[S128x64, .f32]) (a3 : 𝔸[S64, .f32])
    (a4 : 𝔸[S64x64, .f32]) (a5 : 𝔸[S64, .f32]) (a6 : 𝔸[S128x64, .f32]) (a7 : 𝔸[S64, .f32]) (a8 : 𝔸[S64x64, .f32])
    (a9 : 𝔸[S64, .f32]) (n : Fin 100000) (c : Fin 64) (q : Fin 128) (hq : q.val = c.val) :
    F3 a0 a1 a2 a3 a4 a5 a6 a7 a8 a9 (ix2 n q)
      = branch (Cert.ReferenceIdeal.ReadP.val_main_v20 (F := Ideal) a1) (Cert.ReferenceIdeal.ReadP.val_main_v9 (F := Ideal) a1) (Cert.ReferenceIdeal.ReadP.val_main_v27 (F := Ideal) a1)
          (Cert.ReferenceIdeal.ReadP.val_main_v14 (F := Ideal) a1) a0 a2 a3 a4 a5 n c := by
  have hs := col_src a1
  have hd := col_dst a1
  have hi := col_dinv a1
  have hfin : ∀ i, 0 ≤ dinvArr a1 i ∧ dinvArr a1 i ≠ ⊤ := fun i => by rw [hi]; exact ref_dinv_fin a1 i
  have hdst : ∀ (e : Fin 1700000) (n : Fin 100000), (dstCol a1 (ix2 e (0 : Fin 1))).toInt = (n.val : Int) →
      rowOf (Cert.ReferenceIdeal.ReadP.val_main_v27 (F := Ideal) a1) e = n := fun e n h => ref_dst_row a1 e n (by rw [← hd]; exact h)
  have hb : c.val + 0 < 128 := Nat.lt_trans c.isLt (by decide)
  have hq' : q = ⟨c.val + 0, hb⟩ := Fin.ext (by simpa using hq)
  rw [hq']
  unfold F3 F2 F1 F0
  refine (half_eq (srcnCol a1) (dstCol a1) (Cert.ReferenceIdeal.ReadP.val_main_v27 (F := Ideal) a1) (dinvArr a1) hfin hdst a0 (W1cat a2 a6)
    (biasRow (b1cat a3 a7)) (W2bd a4 a8) (biasRow (b2cat a5 a9)) (dcol a1) (dcol_apply a1) a2 a3 a4 a5 0 (Or.inl rfl)
    (fun c => by omega)
    (fun j c => W1cat_left a2 a6 j c _ rfl)
    (fun c => biasRow_b1_left a3 a7 c _ rfl)
    (fun k c => W2bd_diag_left a4 a8 k c _ _ rfl rfl)
    (fun k c hk => W2bd_off a4 a8 k _ (Or.inr ⟨by rcases hk with h | h <;> omega, by show c.val + 0 < 64; omega⟩))
    (fun c => biasRow_b2_left a5 a9 c _ rfl) n c).trans ?_
  rw [hs, hd, hi]

/-- The second half (`o = 64`) with the second parameter set. -/
theorem half_out (a0 : 𝔸[S100000x128, .f32]) (a1 : 𝔸[S2x1600000, .i32]) (a2 : 𝔸[S128x64, .f32]) (a3 : 𝔸[S64, .f32])
    (a4 : 𝔸[S64x64, .f32]) (a5 : 𝔸[S64, .f32]) (a6 : 𝔸[S128x64, .f32]) (a7 : 𝔸[S64, .f32]) (a8 : 𝔸[S64x64, .f32])
    (a9 : 𝔸[S64, .f32]) (n : Fin 100000) (c : Fin 64) (q : Fin 128) (hq : q.val = c.val + 64) :
    F3 a0 a1 a2 a3 a4 a5 a6 a7 a8 a9 (ix2 n q)
      = branch (Cert.ReferenceIdeal.ReadP.val_main_v20 (F := Ideal) a1) (Cert.ReferenceIdeal.ReadP.val_main_v9 (F := Ideal) a1) (Cert.ReferenceIdeal.ReadP.val_main_v27 (F := Ideal) a1)
          (Cert.ReferenceIdeal.ReadP.val_main_v14 (F := Ideal) a1) a0 a6 a7 a8 a9 n c := by
  have hs := col_src a1
  have hd := col_dst a1
  have hi := col_dinv a1
  have hfin : ∀ i, 0 ≤ dinvArr a1 i ∧ dinvArr a1 i ≠ ⊤ := fun i => by rw [hi]; exact ref_dinv_fin a1 i
  have hdst : ∀ (e : Fin 1700000) (n : Fin 100000), (dstCol a1 (ix2 e (0 : Fin 1))).toInt = (n.val : Int) →
      rowOf (Cert.ReferenceIdeal.ReadP.val_main_v27 (F := Ideal) a1) e = n := fun e n h => ref_dst_row a1 e n (by rw [← hd]; exact h)
  have hb : c.val + 64 < 128 := Nat.add_lt_add_right c.isLt 64
  have hq' : q = ⟨c.val + 64, hb⟩ := Fin.ext hq
  rw [hq']
  unfold F3 F2 F1 F0
  refine (half_eq (srcnCol a1) (dstCol a1) (Cert.ReferenceIdeal.ReadP.val_main_v27 (F := Ideal) a1) (dinvArr a1) hfin hdst a0 (W1cat a2 a6)
    (biasRow (b1cat a3 a7)) (W2bd a4 a8) (biasRow (b2cat a5 a9)) (dcol a1) (dcol_apply a1) a6 a7 a8 a9 64 (Or.inr rfl)
    (fun c => by omega)
    (fun j c => W1cat_right a2 a6 j c _ rfl)
    (fun c => biasRow_b1_right a3 a7 c _ rfl)
    (fun k c => W2bd_diag_right a4 a8 k c _ _ rfl rfl)
    (fun k c hk => W2bd_off a4 a8 k _ (Or.inl ⟨by rcases hk with h | h <;> omega, by show 64 ≤ c.val + 64; omega⟩))
    (fun c => biasRow_b2_right a5 a9 c _ rfl) n c).trans ?_
  rw [hs, hd, hi]

/-- The kernel's result is the specification's value. -/
theorem result_spec (a0 : 𝔸[S100000x128, .f32]) (a1 : 𝔸[S2x1600000, .i32]) (a2 : 𝔸[S128x64, .f32]) (a3 : 𝔸[S64, .f32])
    (a4 : 𝔸[S64x64, .f32]) (a5 : 𝔸[S64, .f32]) (a6 : 𝔸[S128x64, .f32]) (a7 : 𝔸[S64, .f32]) (a8 : 𝔸[S64x64, .f32])
    (a9 : 𝔸[S64, .f32]) :
    result a0 a1 a2 a3 a4 a5 a6 a7 a8 a9 = specVal a0 a1 a2 a3 a4 a5 a6 a7 a8 a9 := by
  unfold result specVal
  rw [kernel_stack]
  refine congrArg₂ stack ?_ ?_
  · funext i
    obtain ⟨n, c, rfl⟩ : ∃ (n : Fin 100000) (c : Fin 64), i = ix2 n c := ⟨i 0, i 1, eq_ix2 i⟩
    rw [slice_left _ n c ⟨c.val, by omega⟩ rfl]
    exact half_in a0 a1 a2 a3 a4 a5 a6 a7 a8 a9 n c _ rfl
  · funext i
    obtain ⟨n, c, rfl⟩ : ∃ (n : Fin 100000) (c : Fin 64), i = ix2 n c := ⟨i 0, i 1, eq_ix2 i⟩
    rw [slice_right _ n c ⟨c.val + 64, by omega⟩ rfl]
    exact half_out a0 a1 a2 a3 a4 a5 a6 a7 a8 a9 n c _ rfl

variable (m : (ℓ : Loc nD τ sig) → Buf (Elt Ideal) ℓ) (ρ : Dev nD → PrngReg)

/-- The run: every weakly fair execution terminates with the result buffer at the specification's value of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v58)
        = specVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c _ (mem_uc main_v58 (by decide))).trans (Cert.KernelChain.result_eq m ρ c)).trans (result_spec ..),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c)⟩)
    (run_boundary m ρ)

end Cert.KernelSide

end
-- ==== Proof.lean ====
/-
  The certificate of the fused two-branch graph convolution.

  The kernel computes both branches of a two-layer graph convolution at once, 128 channels wide, in four pipelined
  regions (two row-scaled matrix products, two row-scalings with a bias) with the edge gathers and accumulations
  between them on the host; the reference computes each 64-channel branch by itself, weighting every edge's message
  by the product of its two endpoint weights. At the extended reals both end at one value: the two branches of
  `Cert.GcnSpec` stacked. For the kernel that is the run of its four regions read as closed forms and joined by the
  algebra of `Cert.GcnAlgebra` (a non-negative real factor distributes over the sum of the messages arriving at a
  node); for the reference it is its run read stage by stage. The three frame claims are the generated frames and
  the reference's run with its result dropped; no idealization rule was applied, so `preserves` asks nothing.
-/
import proofs.«148197_j81801947120042_2_alg».proof.Defs
import proofs.«148197_j81801947120042_2_alg».proof.Proof.Gen.Kernel
import proofs.«148197_j81801947120042_2_alg».proof.Proof.Gen.Kernel.Frame
import proofs.«148197_j81801947120042_2_alg».proof.Proof.Gen.KernelIdeal
import proofs.«148197_j81801947120042_2_alg».proof.Proof.Gen.KernelIdeal.Frame
import proofs.«148197_j81801947120042_2_alg».proof.Proof.Gen.ReferenceIdeal
import proofs.«148197_j81801947120042_2_alg».proof.Proof.Gen.Pre_finite_inputs
import proofs.«148197_j81801947120042_2_alg».proof.Proof.KernelSide
import proofs.«148197_j81801947120042_2_alg».proof.Proof.RefSide
import proofs.«148197_j81801947120042_2_alg».proof.Proof.Columns
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs, from memories that agree on the arguments, end at the specification's value of the
    arguments: the kernel by its run read through the regions' closed forms, the reference by its run read stage by
    stage, both halves being the specification's branches. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v171_eq, Cert.Columns.ref_stack, Cert.RefSide.ref_in, Cert.RefSide.ref_out]
  obtain ⟨e0, e1, e2, e3, e4, e5, e6, e7, e8, e9⟩ := hagree c
  rw [e0, e1, e2, e3, e4, e5, e6, e7, e8, e9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
